-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S_ : Shape := ⟨0, ![]⟩

class Facts : Prop where
  bcast_S_S100000x81 : S_.BroadcastsInDim S100000x81 (![] : Fin 0 → Fin S100000x81.rank)
  reducesTo_S100000x81_S_d0_1 : S100000x81.ReducesTo [0, 1] S_
  h_S_ : 0 < S_.numel
  bcast_S_S800000x22 : S_.BroadcastsInDim S800000x22 (![] : Fin 0 → Fin S800000x22.rank)
  reducesTo_S800000x22_S_d0_1 : S800000x22.ReducesTo [0, 1] S_
  bcast_S_S81x64 : S_.BroadcastsInDim S81x64 (![] : Fin 0 → Fin S81x64.rank)
  reducesTo_S81x64_S_d0_1 : S81x64.ReducesTo [0, 1] S_
  bcast_S_S103x64 : S_.BroadcastsInDim S103x64 (![] : Fin 0 → Fin S103x64.rank)
  reducesTo_S103x64_S_d0_1 : S103x64.ReducesTo [0, 1] S_

variable [Facts]

def fn_part1 {F : FTy → Type} [FloatOps F] (main_v13 : IVec S_ 1) (main_v16 : IVec S103x64 1) : IVec S_ 1 :=
  let main_c_5 : IVec S_ 1 := constantI S_ 1 1#1
  let main_v17 : IVec S_ 1 := (fun x v => Host.reduce IntOp.andi x v reducesTo_S103x64_S_d0_1 h_S_) main_v16 main_c_5
  let main_v18 : IVec S_ 1 := andi main_v13 main_v17
  main_v18

def fn {F : FTy → Type} [FloatOps F] (main_arg0 : FVec F S100000x81 .f32) (main_arg1 : FVec F S800000x22 .f32) (main_arg2 : FVec F S81x64 .f32) (main_arg3 : FVec F S103x64 .f32) (main_arg4 : IVec S800000 32) (main_arg5 : IVec S800000 32) : IVec S_ 1 :=
  let main_v0 : FVec F S100000x81 .f32 := Host.absf main_arg0
  let main_cst : FVec F S_ .f32 := constant S_ .f32 0x7F800000#32
  let main_v1 : FVec F S100000x81 .f32 := broadcastInDim S100000x81 ![] bcast_S_S100000x81 main_cst
  let main_v2 : IVec S100000x81 1 := cmpf .olt main_v0 main_v1
  let main_c : IVec S_ 1 := constantI S_ 1 1#1
  let main_v3 : IVec S_ 1 := (fun x v => Host.reduce IntOp.andi x v reducesTo_S100000x81_S_d0_1 h_S_) main_v2 main_c
  let main_v4 : FVec F S800000x22 .f32 := Host.absf main_arg1
  let main_cst_0 : FVec F S_ .f32 := constant S_ .f32 0x7F800000#32
  let main_v5 : FVec F S800000x22 .f32 := broadcastInDim S800000x22 ![] bcast_S_S800000x22 main_cst_0
  let main_v6 : IVec S800000x22 1 := cmpf .olt main_v4 main_v5
  let main_c_1 : IVec S_ 1 := constantI S_ 1 1#1
  let main_v7 : IVec S_ 1 := (fun x v => Host.reduce IntOp.andi x v reducesTo_S800000x22_S_d0_1 h_S_) main_v6 main_c_1
  let main_v8 : IVec S_ 1 := andi main_v3 main_v7
  let main_v9 : FVec F S81x64 .f32 := Host.absf main_arg2
  let main_cst_2 : FVec F S_ .f32 := constant S_ .f32 0x7F800000#32
  let main_v10 : FVec F S81x64 .f32 := broadcastInDim S81x64 ![] bcast_S_S81x64 main_cst_2
  let main_v11 : IVec S81x64 1 := cmpf .olt main_v9 main_v10
  let main_c_3 : IVec S_ 1 := constantI S_ 1 1#1
  let main_v12 : IVec S_ 1 := (fun x v => Host.reduce IntOp.andi x v reducesTo_S81x64_S_d0_1 h_S_) main_v11 main_c_3
  let main_v13 : IVec S_ 1 := andi main_v8 main_v12
  let main_v14 : FVec F S103x64 .f32 := Host.absf main_arg3
  let main_cst_4 : FVec F S_ .f32 := constant S_ .f32 0x7F800000#32
  let main_v15 : FVec F S103x64 .f32 := broadcastInDim S103x64 ![] bcast_S_S103x64 main_cst_4
  let main_v16 : IVec S103x64 1 := cmpf .olt main_v14 main_v15
  fn_part1 (F := F) main_v13 main_v16
-- ==== Kernel.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S78x64 : Shape := ⟨2, ![78, 64]⟩
abbrev S22x64 : Shape := ⟨2, ![22, 64]⟩
abbrev S100000x64 : Shape := ⟨2, ![100000, 64]⟩
abbrev S5000x81 : Shape := ⟨2, ![5000, 81]⟩
abbrev S5000x64 : Shape := ⟨2, ![5000, 64]⟩
abbrev S5000x78 : Shape := ⟨2, ![5000, 78]⟩
abbrev S100000x3 : Shape := ⟨2, ![100000, 3]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S4000x3 : Shape := ⟨2, ![4000, 3]⟩
abbrev S4000x64 : Shape := ⟨2, ![4000, 64]⟩
abbrev S4000x22 : Shape := ⟨2, ![4000, 22]⟩
abbrev S4000 : Shape := ⟨1, ![4000]⟩
abbrev S4000x1 : Shape := ⟨2, ![4000, 1]⟩

abbrev nBuf : Space → Nat
  | .hbm => 55
  | .vmem => 28
  | .smem => 0
  | _ => 0

abbrev bufTy : (tb : Table) → Fin (tcTables nBuf tb) → BufTy
  | .hbm, ⟨0, _⟩ => ⟨S100000x81, .f32⟩
  | .hbm, ⟨1, _⟩ => ⟨S800000x22, .f32⟩
  | .hbm, ⟨2, _⟩ => ⟨S81x64, .f32⟩
  | .hbm, ⟨3, _⟩ => ⟨S103x64, .f32⟩
  | .hbm, ⟨4, _⟩ => ⟨S800000, .i32⟩
  | .hbm, ⟨5, _⟩ => ⟨S800000, .i32⟩
  | .hbm, ⟨6, _⟩ => ⟨S81x64, .f32⟩
  | .hbm, ⟨7, _⟩ => ⟨S78x64, .f32⟩
  | .hbm, ⟨8, _⟩ => ⟨S22x64, .f32⟩
  | .hbm, ⟨9, _⟩ => ⟨S100000x64, .bf16⟩
  | .hbm, ⟨10, _⟩ => ⟨S100000x64, .bf16⟩
  | .hbm, ⟨11, _⟩ => ⟨S100000x3, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x3, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x3, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .bf16⟩
  | .hbm, ⟨48, _⟩ => ⟨S800000x64, .bf16⟩
  | .hbm, ⟨49, _⟩ => ⟨S800000x64, .f32⟩
  | .hbm, ⟨50, _⟩ => ⟨S_, .f32⟩
  | .hbm, ⟨51, _⟩ => ⟨S100000x64, .f32⟩
  | .hbm, ⟨52, _⟩ => ⟨S800000x1, .i32⟩
  | .hbm, ⟨53, _⟩ => ⟨S100000x64, .f32⟩
  | .hbm, ⟨54, _⟩ => ⟨S100000x64, .f32⟩
  | .local _ .vmem, ⟨0, _⟩ => ⟨S5000x81, .f32⟩
  | .local _ .vmem, ⟨1, _⟩ => ⟨S5000x81, .f32⟩
  | .local _ .vmem, ⟨2, _⟩ => ⟨S81x64, .f32⟩
  | .local _ .vmem, ⟨3, _⟩ => ⟨S78x64, .f32⟩
  | .local _ .vmem, ⟨4, _⟩ => ⟨S5000x64, .bf16⟩
  | .local _ .vmem, ⟨5, _⟩ => ⟨S5000x64, .bf16⟩
  | .local _ .vmem, ⟨6, _⟩ => ⟨S5000x64, .bf16⟩
  | .local _ .vmem, ⟨7, _⟩ => ⟨S5000x64, .bf16⟩
  | .local _ .vmem, ⟨8, _⟩ => ⟨S4000x3, .f32⟩
  | .local _ .vmem, ⟨9, _⟩ => ⟨S4000x3, .f32⟩
  | .local _ .vmem, ⟨10, _⟩ => ⟨S4000x3, .f32⟩
  | .local _ .vmem, ⟨11, _⟩ => ⟨S4000x3, .f32⟩
  | .local _ .vmem, ⟨12, _⟩ => ⟨S4000x64, .bf16⟩
  | .local _ .vmem, ⟨13, _⟩ => ⟨S4000x64, .bf16⟩
  | .local _ .vmem, ⟨14, _⟩ => ⟨S4000x64, .bf16⟩
  | .local _ .vmem, ⟨15, _⟩ => ⟨S4000x64, .bf16⟩
  | .local _ .vmem, ⟨16, _⟩ => ⟨S4000x22, .f32⟩
  | .local _ .vmem, ⟨17, _⟩ => ⟨S4000x22, .f32⟩
  | .local _ .vmem, ⟨18, _⟩ => ⟨S22x64, .f32⟩
  | .local _ .vmem, ⟨19, _⟩ => ⟨S4000x64, .bf16⟩
  | .local _ .vmem, ⟨20, _⟩ => ⟨S4000x64, .bf16⟩
  | .local _ .vmem, ⟨21, _⟩ => ⟨S5000x81, .f32⟩
  | .local _ .vmem, ⟨22, _⟩ => ⟨S5000x81, .f32⟩
  | .local _ .vmem, ⟨23, _⟩ => ⟨S81x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S100000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S78x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x22 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S22x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x81 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S81x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S103x64_S81x64_0_0 : S103x64.Slices ![0, 0] S81x64
  slices_S103x64_S78x64_3_0 : S103x64.Slices ![3, 0] S78x64
  slices_S103x64_S22x64_81_0 : S103x64.Slices ![81, 0] S22x64
  inb_S5000x81_S5000x81_0_0 : ∀ a, (![0, 0] : Fin 2 → Nat) a + S5000x81.size a ≤ S5000x81.size a
  h_S5000x81 : 0 < S5000x81.numel
  bitsLt_bf16_f32 : FTy.bits .bf16 < FTy.bits .f32
  inb_S81x64_S81x64_0_0 : ∀ a, (![0, 0] : Fin 2 → Nat) a + S81x64.size a ≤ S81x64.size a
  h_S81x64 : 0 < S81x64.numel
  shapeCasts_S81x64_S81x64 : S81x64.ShapeCasts S81x64
  slices_S5000x81_o0_3_S5000x78 : S5000x81.Slices ![0, 3] S5000x78
  inb_S78x64_S78x64_0_0 : ∀ a, (![0, 0] : Fin 2 → Nat) a + S78x64.size a ≤ S78x64.size a
  h_S78x64 : 0 < S78x64.numel
  shapeCasts_S78x64_S78x64 : S78x64.ShapeCasts S78x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  slices_S100000x81_S100000x3_0_0 : S100000x81.Slices ![0, 0] S100000x3
  bcast_S_S800000 : S_.BroadcastsInDim S800000 (![] : Fin 0 → Fin S800000.rank)
  bcast_S800000_S800000x1_0 : S800000.BroadcastsInDim S800000x1 (![0] : Fin 1 → Fin S800000x1.rank)
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x22_S4000x22_0_0 : ∀ a, (![0, 0] : Fin 2 → Nat) a + S4000x22.size a ≤ S4000x22.size a
  h_S4000x22 : 0 < S4000x22.numel
  inb_S22x64_S22x64_0_0 : ∀ a, (![0, 0] : Fin 2 → Nat) a + S22x64.size a ≤ S22x64.size a
  h_S22x64 : 0 < S22x64.numel
  shapeCasts_S22x64_S22x64 : S22x64.ShapeCasts S22x64
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S5000x64_S5000x64 : S5000x64.ShapeCasts S5000x64
  dot_S5000x81_S81x64_S5000x64_1_0_0_1_n_n_wf : DotDims.WF S5000x81 S81x64 S5000x64 [1] [0] [0] [1] [] []
  dot_S5000x78_S78x64_S5000x64_1_0_0_1_n_n_wf : DotDims.WF S5000x78 S78x64 S5000x64 [1] [0] [0] [1] [] []
  gather_S100000x3_S800000x1_S800000x3_1_0_n_n_0_1_13_wf : GatherDims.WF S100000x3 S800000x1 S800000x3 [1] [0] [] [0] [] 1 ![1, 3]
  gather_S100000x64_S800000x1_S800000x64_1_0_n_n_0_1_164_wf : GatherDims.WF S100000x64 S800000x1 S800000x64 [1] [0] [] [0] [] 1 ![1, 64]
  dot_S4000x22_S22x64_S4000x64_1_0_0_1_n_n_wf : DotDims.WF S4000x22 S22x64 S4000x64 [1] [0] [0] [1] [] []
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x81.size a ≤ S100000x81.size a
  hwx0_0 : ∀ i : grid0.Coords, EltTy.bits .f32 = 32 ∨ (Rect.block (s := S100000x81) S5000x81.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x64.size a ≤ S81x64.size a
  hwx0_1 : ∀ i : grid0.Coords, EltTy.bits .f32 = 32 ∨ (Rect.block (s := S81x64) S81x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S78x64.size a ≤ S78x64.size a
  hwx0_2 : ∀ i : grid0.Coords, EltTy.bits .f32 = 32 ∨ (Rect.block (s := S78x64) S78x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x3.size a ≤ S800000x3.size a
  hwx1_0 : ∀ i : grid1.Coords, EltTy.bits .f32 = 32 ∨ (Rect.block (s := S800000x3) S4000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S800000x3.size a
  hwx1_1 : ∀ i : grid1.Coords, EltTy.bits .f32 = 32 ∨ (Rect.block (s := S800000x3) S4000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S800000x64.size a
  hwx1_2 : ∀ i : grid1.Coords, EltTy.bits .bf16 = 32 ∨ (Rect.block (s := S800000x64) S4000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S800000x64.size a
  hwx1_3 : ∀ i : grid1.Coords, EltTy.bits .bf16 = 32 ∨ (Rect.block (s := S800000x64) S4000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x22.size a ≤ S800000x22.size a
  hwx1_4 : ∀ i : grid1.Coords, EltTy.bits .f32 = 32 ∨ (Rect.block (s := S800000x22) S4000x22.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S22x64.size a ≤ S22x64.size a
  hwx1_5 : ∀ i : grid1.Coords, EltTy.bits .f32 = 32 ∨ (Rect.block (s := S22x64) S22x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S800000x64.size a
  hwx1_6 : ∀ i : grid1.Coords, EltTy.bits .bf16 = 32 ∨ (Rect.block (s := S800000x64) S4000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x81.size a ≤ S100000x81.size a
  hwx2_0 : ∀ i : grid2.Coords, EltTy.bits .f32 = 32 ∨ (Rect.block (s := S100000x81) S5000x81.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S81x64.size a ≤ S81x64.size a
  hwx2_1 : ∀ i : grid2.Coords, EltTy.bits .f32 = 32 ∨ (Rect.block (s := S81x64) S81x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x81_S81x64_S5000x64_1_0_0_1_n_n : DotDims S5000x81 S81x64 S5000x64 where
  lhsContracting := [1]
  rhsContracting := [0]
  lhsNonContracting := [0]
  rhsNonContracting := [1]
  lhsBatch := []
  rhsBatch := []
  wf := dot_S5000x81_S81x64_S5000x64_1_0_0_1_n_n_wf
def dot_S5000x78_S78x64_S5000x64_1_0_0_1_n_n : DotDims S5000x78 S78x64 S5000x64 where
  lhsContracting := [1]
  rhsContracting := [0]
  lhsNonContracting := [0]
  rhsNonContracting := [1]
  lhsBatch := []
  rhsBatch := []
  wf := dot_S5000x78_S78x64_S5000x64_1_0_0_1_n_n_wf
def gather_S100000x3_S800000x1_S800000x3_1_0_n_n_0_1_13 : GatherDims S100000x3 S800000x1 S800000x3 where
  offsetDims := [1]
  collapsedSliceDims := [0]
  operandBatchingDims := []
  startIndicesBatchingDims := []
  startIndexMap := [0]
  indexVectorDim := 1
  sliceSizes := ![1, 3]
  wf := gather_S100000x3_S800000x1_S800000x3_1_0_n_n_0_1_13_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S4000x22_S22x64_S4000x64_1_0_0_1_n_n : DotDims S4000x22 S22x64 S4000x64 where
  lhsContracting := [1]
  rhsContracting := [0]
  lhsNonContracting := [0]
  rhsNonContracting := [1]
  lhsBatch := []
  rhsBatch := []
  wf := dot_S4000x22_S22x64_S4000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S5000x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S81x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S78x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S4000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S4000x22.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S22x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x81.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S81x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x81 : Shape := ⟨2, ![100000, 81]⟩
abbrev S800000x22 : Shape := ⟨2, ![800000, 22]⟩
abbrev S81x64 : Shape := ⟨2, ![81, 64]⟩
abbrev S103x64 : Shape := ⟨2, ![103, 64]⟩
abbrev S800000 : Shape := ⟨1, ![800000]⟩
abbrev S_ : Shape := ⟨0, ![]⟩
abbrev S800000x1 : Shape := ⟨2, ![800000, 1]⟩
abbrev S800000x81 : Shape := ⟨2, ![800000, 81]⟩
abbrev S800000x3 : Shape := ⟨2, ![800000, 3]⟩
abbrev S800000x78 : Shape := ⟨2, ![800000, 78]⟩
abbrev S800000x103 : Shape := ⟨2, ![800000, 103]⟩
abbrev S800000x64 : Shape := ⟨2, ![800000, 64]⟩
abbrev S100000x64 : Shape := ⟨2, ![100000, 64]⟩

abbrev nBuf : Space → Nat
  | .hbm => 54
  | .vmem => 0
  | .smem => 0
  | _ => 0

abbrev bufTy : (tb : Table) → Fin (tcTables nBuf tb) → BufTy
  | .hbm, ⟨0, _⟩ => ⟨S100000x81, .f32⟩
  | .hbm, ⟨1, _⟩ => ⟨S800000x22, .f32⟩
  | .hbm, ⟨2, _⟩ => ⟨S81x64, .f32⟩
  | .hbm, ⟨3, _⟩ => ⟨S103x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x81, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x81, .f32⟩
  | .hbm, ⟨24, _⟩ => ⟨S800000x3, .f32⟩
  | .hbm, ⟨25, _⟩ => ⟨S800000x3, .f32⟩
  | .hbm, ⟨26, _⟩ => ⟨S800000x3, .f32⟩
  | .hbm, ⟨27, _⟩ => ⟨S800000x3, .f32⟩
  | .hbm, ⟨28, _⟩ => ⟨S_, .f32⟩
  | .hbm, ⟨29, _⟩ => ⟨S800000, .f32⟩
  | .hbm, ⟨30, _⟩ => ⟨S800000, .f32⟩
  | .hbm, ⟨31, _⟩ => ⟨S_, .f32⟩
  | .hbm, ⟨32, _⟩ => ⟨S800000, .f32⟩
  | .hbm, ⟨33, _⟩ => ⟨S800000, .i1⟩
  | .hbm, ⟨34, _⟩ => ⟨S_, .f32⟩
  | .hbm, ⟨35, _⟩ => ⟨S800000, .f32⟩
  | .hbm, ⟨36, _⟩ => ⟨S800000, .f32⟩
  | .hbm, ⟨37, _⟩ => ⟨S800000x3, .f32⟩
  | .hbm, ⟨38, _⟩ => ⟨S800000x78, .f32⟩
  | .hbm, ⟨39, _⟩ => ⟨S800000x78, .f32⟩
  | .hbm, ⟨40, _⟩ => ⟨S800000x78, .f32⟩
  | .hbm, ⟨41, _⟩ => ⟨S800000x81, .f32⟩
  | .hbm, ⟨42, _⟩ => ⟨S800000, .f32⟩
  | .hbm, ⟨43, _⟩ => ⟨S800000x1, .f32⟩
  | .hbm, ⟨44, _⟩ => ⟨S800000x81, .f32⟩
  | .hbm, ⟨45, _⟩ => ⟨S800000x81, .f32⟩
  | .hbm, ⟨46, _⟩ => ⟨S800000x103, .f32⟩
  | .hbm, ⟨47, _⟩ => ⟨S800000x64, .f32⟩
  | .hbm, ⟨48, _⟩ => ⟨S_, .f32⟩
  | .hbm, ⟨49, _⟩ => ⟨S100000x64, .f32⟩
  | .hbm, ⟨50, _⟩ => ⟨S800000x1, .i32⟩
  | .hbm, ⟨51, _⟩ => ⟨S100000x64, .f32⟩
  | .hbm, ⟨52, _⟩ => ⟨S100000x64, .f32⟩
  | .hbm, ⟨53, _⟩ => ⟨S100000x64, .f32⟩
  | _, _ => ⟨S100000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x81_S800000x3_0_0 : S800000x81.Slices ![0, 0] S800000x3
  reducesTo_S800000x3_S800000_d1 : S800000x3.ReducesTo [1] S800000
  h_S_ : 0 < S_.numel
  slices_S800000x81_S800000x78_0_3 : S800000x81.Slices ![0, 3] S800000x78
  concatenates_S800000x3_S800000x78_S800000x81_d1 : Shape.Concatenates [S800000x3, S800000x78] S800000x81 1
  bcast_S800000x1_S800000x81_0_1 : S800000x1.BroadcastsInDim S800000x81 (![0, 1] : Fin 2 → Fin S800000x81.rank)
  concatenates_S800000x81_S800000x22_S800000x103_d1 : Shape.Concatenates [S800000x81, S800000x22] S800000x103 1
  bcast_S_S100000x64 : S_.BroadcastsInDim S100000x64 (![] : Fin 0 → Fin S100000x64.rank)
  gather_S100000x81_S800000x1_S800000x81_1_0_n_n_0_1_181_wf : GatherDims.WF S100000x81 S800000x1 S800000x81 [1] [0] [] [0] [] 1 ![1, 81]
  dot_S800000x103_S103x64_S800000x64_1_0_0_1_n_n_wf : DotDims.WF S800000x103 S103x64 S800000x64 [1] [0] [0] [1] [] []
  scatter_S100000x64_S800000x1_S800000x64_1_0_0_1_wf : ScatterDims.WF S100000x64 S800000x1 S800000x64 [1] [0] [0] 1
  dot_S100000x81_S81x64_S100000x64_1_0_0_1_n_n_wf : DotDims.WF S100000x81 S81x64 S100000x64 [1] [0] [0] [1] [] []

variable [Facts₀]

def gather_S100000x81_S800000x1_S800000x81_1_0_n_n_0_1_181 : GatherDims S100000x81 S800000x1 S800000x81 where
  offsetDims := [1]
  collapsedSliceDims := [0]
  operandBatchingDims := []
  startIndicesBatchingDims := []
  startIndexMap := [0]
  indexVectorDim := 1
  sliceSizes := ![1, 81]
  wf := gather_S100000x81_S800000x1_S800000x81_1_0_n_n_0_1_181_wf
def dot_S800000x103_S103x64_S800000x64_1_0_0_1_n_n : DotDims S800000x103 S103x64 S800000x64 where
  lhsContracting := [1]
  rhsContracting := [0]
  lhsNonContracting := [0]
  rhsNonContracting := [1]
  lhsBatch := []
  rhsBatch := []
  wf := dot_S800000x103_S103x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x81_S81x64_S100000x64_1_0_0_1_n_n : DotDims S100000x81 S81x64 S100000x64 where
  lhsContracting := [1]
  rhsContracting := [0]
  lhsNonContracting := [0]
  rhsNonContracting := [1]
  lhsBatch := []
  rhsBatch := []
  wf := dot_S100000x81_S81x64_S100000x64_1_0_0_1_n_n_wf

class Facts : Prop extends Facts₀ where

variable [Facts]
-- ==== Proof.KernelRun.lean ====
/-
  The kernel's run with its result named: at the compiled mesh, from any launch memory with zero counters, every weakly
  fair execution of @main terminates without a fault, the result buffer ends at the contents the last region boundary
  gives it, and the six argument arrays end as launched. It is the launch over @main's six segments (three stretches of
  host operations, three regions) read against the final state: every unscoped buffer, the result's among them, ends at
  the last boundary's contents.
-/
import proofs.«130521_j49357764165669_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument arrays end as launched. -/
theorem run_named : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.NamedRun

end
-- ==== Proof.Finite.lean ====
/-
  The precondition `finite_inputs` read back at the extended reals. The printed predicate computes, for each of the four
  float inputs x, the array of bits |x| < +∞, folds each array by `and` over both axes into one bit, and joins the four
  bits by `and`. If the result is 1 then every bit of every array is 1, and on the extended reals |x| = max x (-x) < ⊤
  excludes both ⊤ and ⊥: every element of every float input is a real number.
-/
import proofs.«130521_j49357764165669_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx
open Cert.Pre_finite_inputs

/-- The scalar shape has exactly one index (there is no axis to give a coordinate on). -/
instance subsingleton_scalar_idx : Subsingleton S_.Idx := ⟨fun a b => funext fun d => d.elim0⟩

/-- An extended real x with |x| = max x (-x) strictly below ⊤ is a real number: x = ⊤ gives |x| = ⊤, and x = ⊥ gives
    -x = ⊤ and again |x| = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 pattern 0x7F800000 (sign 0, exponent all ones, fraction 0) denotes +∞, the top extended real. -/
theorem inf_pattern : Ideal.ofBits .f32 0x7F800000#32 = (⊤ : EReal) := by simp [Ideal.ofBits, Ideal.ieee]

/-- One element of one comparison array: if the bit "|a i| < c" is 1, where c is the +∞ pattern, then a i is real. -/
theorem real_of_bit (x : EReal) (h : Ideal.cmp .olt (max x (-x)) (Ideal.ofBits .f32 0x7F800000#32) = 1#1) :
    ∃ r : ℝ, x = (r : EReal) := by
  rw [inf_pattern] at h
  refine real_of_abs_lt_top x ?_
  by_contra hn
  simp [Ideal.cmp, hn] at h

/-- THE PRECONDITION DECODED: if `finite_inputs` evaluates to 1 on the extended reals, every element of each of the four
    float inputs is a real number (neither infinity). The result bit is the `and` of four bits, each the `and`-fold over
    all indices of the bits |x| < +∞; a fold by `and` that is 1 met only 1s, and |x| < ⊤ makes x real. -/
theorem finite_of_pre [Facts] (a0 : FVec Ideal S100000x81 .f32) (a1 : FVec Ideal S800000x22 .f32)
    (a2 : FVec Ideal S81x64 .f32) (a3 : FVec Ideal S103x64 .f32) (a4 a5 : IVec S800000 32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h ix0
  dsimp only [fn, fn_part1] at e
  obtain ⟨e012, e3⟩ := IntOp.andi_eq_one.1 e
  obtain ⟨e01, e2⟩ := IntOp.andi_eq_one.1 e012
  obtain ⟨e0, e1⟩ := IntOp.andi_eq_one.1 e01
  refine ⟨fun i => ?_, fun i => ?_, fun i => ?_, fun i => ?_⟩
  · exact real_of_bit (a0 i) (Host.reduce_andi_all _ _ _ _ _ e0 i)
  · exact real_of_bit (a1 i) (Host.reduce_andi_all _ _ _ _ _ e1 i)
  · exact real_of_bit (a2 i) (Host.reduce_andi_all _ _ _ _ _ e2 i)
  · exact real_of_bit (a3 i) (Host.reduce_andi_all _ _ _ _ _ e3 i)

end Cert.FiniteInputs

end
-- ==== Proof.KernelChain.lean ====
/-
  The host operations between the three regions, read: what each region finds in the buffers its windows stage,
  as a term over the launch memory and over the arrays the earlier regions left.

  Boundary contents follow the generated fold: before region 0 three row slices of the weight matrix are cut; before
  region 1 the first three feature columns are cut, both index arrays are normalised (a negative index is shifted by the
  number of nodes) and four row gathers are taken; before region 2 the edge contributions are widened and scatter-added
  into a zero array.
-/
import proofs.«130521_j49357764165669_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- An index array as the gathers read it: a negative entry shifted by the number of nodes, as a column. -/
def nidx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 100000#32))) x)

/-! ## Before region 0 -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
/-- Rows 0..80 of the weight matrix. -/
theorem W1_v0 (c : Dev nD) : W1 m ρ c (Proc.devRef .tc main_v0)
    = extractStridedSlice S81x64 ![0, 0] (m ((c : Thread nD τ).loc main_arg3)) slices_S103x64_S81x64_0_0 := by
  show StableHlo.after hostOps0 (W0 m ρ c) (Proc.devRef .tc main_v0) = _
  after_results
/-- Rows 3..80 of the weight matrix. -/
theorem W1_v1 (c : Dev nD) : W1 m ρ c (Proc.devRef .tc main_v1)
    = extractStridedSlice S78x64 ![3, 0] (m ((c : Thread nD τ).loc main_arg3)) slices_S103x64_S78x64_3_0 := by
  show StableHlo.after hostOps0 (W0 m ρ c) (Proc.devRef .tc main_v1) = _
  after_results
/-- Rows 81..102 of the weight matrix. -/
theorem W1_v2 (c : Dev nD) : W1 m ρ c (Proc.devRef .tc main_v2)
    = extractStridedSlice S22x64 ![81, 0] (m ((c : Thread nD τ).loc main_arg3)) slices_S103x64_S22x64_81_0 := by
  show StableHlo.after hostOps0 (W0 m ρ c) (Proc.devRef .tc main_v2) = _
  after_results

/-! ## Region 0's exit: the arguments as launched, its two outputs as the pipeline leaves them -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_v2 (c : Dev nD) : W2 m ρ c (Proc.devRef .tc main_v2)
    = extractStridedSlice S22x64 ![81, 0] (m ((c : Thread nD τ).loc main_arg3)) slices_S103x64_S22x64_81_0 :=
  (W2_of_ne m ρ c main_v2 (by decide)).trans (W1_v2 m ρ c)
/-- The full projection of every node, as region 0 leaves it. -/
theorem W2_U (c : Dev nD) : W2 m ρ c (Proc.devRef .tc main_v3_0) = (dat0 (V1 m ρ) c).arrAt 3 cfg0.N := W2_arr m ρ c 3
/-- The projection of the columns past the coordinates, as region 0 leaves it. -/
theorem W2_V (c : Dev nD) : W2 m ρ c (Proc.devRef .tc main_v3_1) = (dat0 (V1 m ρ) c).arrAt 4 cfg0.N := W2_arr m ρ c 4

/-! ## Before region 1 -/

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c
theorem W3_arg0 (c : Dev nD) : W3 m ρ c (Proc.devRef .tc main_arg0) = m ((c : Thread nD τ).loc main_arg0) := by
  show StableHlo.after hostOps1 (W2 m ρ c) (Proc.devRef .tc main_arg0) = _
  after_results_simp
  exact W2_arg0 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_v2 (c : Dev nD) : W3 m ρ c (Proc.devRef .tc main_v2)
    = extractStridedSlice S22x64 ![81, 0] (m ((c : Thread nD τ).loc main_arg3)) slices_S103x64_S22x64_81_0 := by
  show StableHlo.after hostOps1 (W2 m ρ c) (Proc.devRef .tc main_v2) = _
  after_results_simp
  exact W2_v2 m ρ c
/-- The source endpoints' coordinates. -/
theorem W3_v11 (c : Dev nD) : W3 m ρ c (Proc.devRef .tc main_v11)
    = Host.gather gather_S100000x3_S800000x1_S800000x3_1_0_n_n_0_1_13
        (extractStridedSlice S100000x3 ![0, 0] (m ((c : Thread nD τ).loc main_arg0)) slices_S100000x81_S100000x3_0_0)
        (nidx (m ((c : Thread nD τ).loc main_arg4))) := by
  show StableHlo.after hostOps1 (W2 m ρ c) (Proc.devRef .tc main_v11) = _
  after_results_simp
  rw [W2_arg0 m ρ c, W2_arg4 m ρ c]; rfl
/-- The destination endpoints' coordinates. -/
theorem W3_v18 (c : Dev nD) : W3 m ρ c (Proc.devRef .tc main_v18)
    = Host.gather gather_S100000x3_S800000x1_S800000x3_1_0_n_n_0_1_13
        (extractStridedSlice S100000x3 ![0, 0] (m ((c : Thread nD τ).loc main_arg0)) slices_S100000x81_S100000x3_0_0)
        (nidx (m ((c : Thread nD τ).loc main_arg5))) := by
  show StableHlo.after hostOps1 (W2 m ρ c) (Proc.devRef .tc main_v18) = _
  after_results_simp
  rw [W2_arg0 m ρ c, W2_arg5 m ρ c]; rfl
/-- The full projection's rows at the destinations. -/
theorem W3_v25 (c : Dev nD) : W3 m ρ c (Proc.devRef .tc main_v25)
    = Host.gather gather_S100000x64_S800000x1_S800000x64_1_0_n_n_0_1_164
        ((dat0 (V1 m ρ) c).arrAt 3 cfg0.N) (nidx (m ((c : Thread nD τ).loc main_arg5))) := by
  show StableHlo.after hostOps1 (W2 m ρ c) (Proc.devRef .tc main_v25) = _
  after_results_simp
  rw [W2_U m ρ c, W2_arg5 m ρ c]; rfl
/-- The tail projection's rows at the sources. -/
theorem W3_v32 (c : Dev nD) : W3 m ρ c (Proc.devRef .tc main_v32)
    = Host.gather gather_S100000x64_S800000x1_S800000x64_1_0_n_n_0_1_164
        ((dat0 (V1 m ρ) c).arrAt 4 cfg0.N) (nidx (m ((c : Thread nD τ).loc main_arg4))) := by
  show StableHlo.after hostOps1 (W2 m ρ c) (Proc.devRef .tc main_v32) = _
  after_results_simp
  rw [W2_V m ρ c, W2_arg4 m ρ c]; rfl

/-! ## Region 1's exit -/

theorem W4_arg0 (c : Dev nD) : W4 m ρ c (Proc.devRef .tc main_arg0) = m ((c : Thread nD τ).loc main_arg0) :=
  (W4_of_ne m ρ c main_arg0 (by decide)).trans (W3_arg0 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg4 (c : Dev nD) : W4 m ρ c (Proc.devRef .tc main_arg4) = m ((c : Thread nD τ).loc main_arg4) :=
  (W4_of_ne m ρ c main_arg4 (by decide)).trans (W3_arg4 m ρ c)
/-- The edge contributions, as region 1 leaves them. -/
theorem W4_contrib (c : Dev nD) : W4 m ρ c (Proc.devRef .tc main_v33) = (dat1 (V3 m ρ) c).arrAt 6 cfg1.N := W4_arr m ρ c 6

/-! ## Before region 2 -/

theorem W5_arg0 (c : Dev nD) : W5 m ρ c (Proc.devRef .tc main_arg0) = m ((c : Thread nD τ).loc main_arg0) := by
  show StableHlo.after hostOps2 (W4 m ρ c) (Proc.devRef .tc main_arg0) = _
  after_results
  exact W4_arg0 m ρ c
theorem W5_arg2 (c : Dev nD) : W5 m ρ c (Proc.devRef .tc main_arg2) = m ((c : Thread nD τ).loc main_arg2) := by
  show StableHlo.after hostOps2 (W4 m ρ c) (Proc.devRef .tc main_arg2) = _
  after_results
  exact W4_arg2 m ρ c
/-- The aggregate: the widened edge contributions scatter-added, by the raw source indices, into a zero array. -/
theorem W5_v37 (c : Dev nD) : W5 m ρ c (Proc.devRef .tc main_v37)
    = Host.scatterAdd (F := Ideal) scatter_S100000x64_S800000x1_S800000x64_1_0_0_1
        (broadcastInDim S100000x64 ![] bcast_S_S100000x64 (constant (F := Ideal) S_ .f32 0x00000000#32))
        (broadcastInDim S800000x1 ![0] bcast_S800000_S800000x1_0 (m ((c : Thread nD τ).loc main_arg4)))
        (extf (F := Ideal) .f32 ((dat1 (F := Ideal) (V3 m ρ) c).arrAt 6 cfg1.N) bitsLt_bf16_f32) := by
  show StableHlo.after hostOps2 (W4 m ρ c) (Proc.devRef .tc main_v37) = _
  after_results
  rw [W4_contrib m ρ c, W4_arg4 m ρ c]

/-! ## Region 2's exit -/

/-- The result array, as region 2 leaves it. -/
theorem W6_out (c : Dev nD) : W6 m ρ c (Proc.devRef .tc main_v38) = (dat2 (V5 m ρ) c).arrAt 3 cfg2.N := W6_arr m ρ c 3

end Cert.KernelIdeal.Chain

end
-- ==== Proof.RowGather.lean ====
import Idealize.ShloMosaic.Lib.ValueIdx

/-!
# A row gather of a rank-2 operand, read at an index

What `x[idx]` of a table `x : [N, C]` at an integer vector `idx : [R]` lowers to: a `stablehlo.gather` with
offset_dims `[1]`, collapsed_slice_dims `[0]`, no batching axes, start_index_map `[0]`, index_vector_dim `1` and
slice_sizes `[1, C]` over the start indices as `[R, 1]`. Result element `(e, k)` is `x` at row `idx[e, 0]`, read as
a signed integer and clamped into `[0, N − 1]` (the gather clamps every start so that its slice fits, and a slice of
one row fits from any row up to `N − 1`), and at column `k`: the column axis is not in the start index map, so its
start is `0`, and it is the one offset axis, so its coordinate is the result's coordinate on axis `1`. The row read
depends on the start indices and on `N` only, not on the width `C` nor on the operand's contents.
-/

noncomputable section

namespace Cert.RowGather

open Idealize.ShloMosaic Idealize.ShloMosaic.ValueIdx

/-- The dimension numbers of a row gather, for an operand `[N, C]`, start indices `[R, 1]` and a result `[R, C]`:
    axis `0` of the operand is collapsed and indexed by the one component of each start index, axis `1` is the offset
    axis and is taken whole (slice sizes `[1, C]`). Their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `e` reads: its start index `idx[e, 0]` read as a signed integer (a negative one
    reads as `0`) and clamped into `[0, N − 1]`. It depends on neither the operand's width nor its contents. -/
def rowOf {R w : Nat} (N : Nat) (hN : 0 < N) (idx : IVec ⟨2, ![R, 1]⟩ w) (e : Fin R) : Fin N :=
  ⟨min (idx (ix2 e (0 : Fin 1))).toInt.toNat (N - 1), by omega⟩

/-- THE ROW GATHER READ AT `(e, k)`: the operand at row `rowOf N hN idx e` (the clamped start index of result row
    `e`) and column `k`. On operand axis `0` the index is the clamped start alone, since the axis is collapsed and
    not a batching axis; on operand axis `1` the start is `0` and the offset coordinate is the result's coordinate on
    its axis `1`. -/
theorem gather_rows_apply {α : Type} {N R C w : Nat} (hN : 0 < N) (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N R C wf) x idx (ix2 e k) = x (ix2 (rowOf N hN idx e) k) := by
  unfold Host.gather
  congr 1
  funext a
  refine Fin.ext ?_
  match a with
  | ⟨0, _⟩ =>
    show (rowDims N R C wf).start (ix2 e k) idx 0 + (rowDims N R C wf).batchCoord (ix2 e k) 0
      + (rowDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e k) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e k) idx 1 + (rowDims N R C wf).batchCoord (ix2 e k) 1
      + (rowDims N R C wf).offCoord (ix2 e k) 1 = k.val
    have h10 : (1 : Fin 2) ∉ [(0 : Fin 2)] := by decide
    have h1 : (1 : Fin 2) ∉ (rowDims N R C wf).startIndexMap := h10
    have hk : (1 : Fin 2) ∈ (rowDims N R C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## The three gathers of the program are instances -/

/-- The dimension numbers printed for the width-81 operand are `rowDims 100000 800000 81`. -/
example (wf : GatherDims.WF ⟨2, ![100000, 81]⟩ ⟨2, ![800000, 1]⟩ ⟨2, ![800000, 81]⟩ [1] [0] [] [0] [] 1 ![1, 81]) :
    ({ offsetDims := [1], collapsedSliceDims := [0], operandBatchingDims := [], startIndicesBatchingDims := [],
       startIndexMap := [0], indexVectorDim := 1, sliceSizes := ![1, 81], wf := wf } :
      GatherDims ⟨2, ![100000, 81]⟩ ⟨2, ![800000, 1]⟩ ⟨2, ![800000, 81]⟩) = rowDims 100000 800000 81 wf := rfl

/-- The dimension numbers printed for the width-3 operand are `rowDims 100000 800000 3`. -/
example (wf : GatherDims.WF ⟨2, ![100000, 3]⟩ ⟨2, ![800000, 1]⟩ ⟨2, ![800000, 3]⟩ [1] [0] [] [0] [] 1 ![1, 3]) :
    ({ offsetDims := [1], collapsedSliceDims := [0], operandBatchingDims := [], startIndicesBatchingDims := [],
       startIndexMap := [0], indexVectorDim := 1, sliceSizes := ![1, 3], wf := wf } :
      GatherDims ⟨2, ![100000, 3]⟩ ⟨2, ![800000, 1]⟩ ⟨2, ![800000, 3]⟩) = rowDims 100000 800000 3 wf := rfl

/-- The dimension numbers printed for the width-64 operand are `rowDims 100000 800000 64`. -/
example (wf : GatherDims.WF ⟨2, ![100000, 64]⟩ ⟨2, ![800000, 1]⟩ ⟨2, ![800000, 64]⟩ [1] [0] [] [0] [] 1 ![1, 64]) :
    ({ offsetDims := [1], collapsedSliceDims := [0], operandBatchingDims := [], startIndicesBatchingDims := [],
       startIndexMap := [0], indexVectorDim := 1, sliceSizes := ![1, 64], wf := wf } :
      GatherDims ⟨2, ![100000, 64]⟩ ⟨2, ![800000, 1]⟩ ⟨2, ![800000, 64]⟩) = rowDims 100000 800000 64 wf := rfl

/-- The same row function serves the three widths: each gather reads row `rowOf 100000 _ idx e` of its operand. -/
example {α : Type} {w : Nat} (wf81 : GatherDims.WF ⟨2, ![100000, 81]⟩ ⟨2, ![800000, 1]⟩ ⟨2, ![800000, 81]⟩ [1] [0] [] [0] [] 1 ![1, 81])
    (wf3 : GatherDims.WF ⟨2, ![100000, 3]⟩ ⟨2, ![800000, 1]⟩ ⟨2, ![800000, 3]⟩ [1] [0] [] [0] [] 1 ![1, 3])
    (x : (⟨2, ![100000, 81]⟩ : Shape).Idx → α) (y : (⟨2, ![100000, 3]⟩ : Shape).Idx → α)
    (idx : IVec ⟨2, ![800000, 1]⟩ w) (e : Fin 800000) (k : Fin 81) (l : Fin 3) :
    Host.gather (rowDims 100000 800000 81 wf81) x idx (ix2 e k) = x (ix2 (rowOf 100000 (by decide) idx e) k) ∧
    Host.gather (rowDims 100000 800000 3 wf3) y idx (ix2 e l) = y (ix2 (rowOf 100000 (by decide) idx e) l) :=
  ⟨gather_rows_apply _ wf81 x idx e k, gather_rows_apply _ wf3 y idx e l⟩

end Cert.RowGather

end
-- ==== Proof.Inputs.lean ====
/-
  What the regions find in their windows, index by index, over the launch memory: the coordinates of each edge's two
  endpoints (rows of the feature matrix selected by the normalised, clamped source and destination indices), the
  node projections gathered at those rows, the edge's bond row, and the slices of the weight matrix.
-/
import proofs.«130521_j49357764165669_2_alg».proof.Proof.KernelChain
import proofs.«130521_j49357764165669_2_alg».proof.Proof.RowGather
import Idealize.ShloMosaic.Lib.Pipeline.Value
import Idealize.ShloMosaic.Lib.ValueIdx

set_option maxRecDepth 16384

noncomputable section

namespace Cert.KernelIdeal.Inputs

open Cert.KernelIdeal Cert.KernelIdeal.Gen Cert.KernelIdeal.Chain Idealize.ShloMosaic Idealize.ShloMosaic.TcCoe
open Idealize.ShloMosaic.ValueIdx Cert.RowGather Idealize.SL.Sem

variable (m : (ℓ : Loc nD τ sig) → Buf (Elt Ideal) ℓ) (ρ : Dev nD → PrngReg)

/-- The feature row edge `e`'s source index selects. -/
def srow (c : Dev nD) (e : Fin 800000) : Fin 100000 :=
  rowOf 100000 (by decide) (nidx (m ((c : Thread nD τ).loc main_arg4))) e
/-- The feature row edge `e`'s destination index selects. -/
def drow (c : Dev nD) (e : Fin 800000) : Fin 100000 :=
  rowOf 100000 (by decide) (nidx (m ((c : Thread nD τ).loc main_arg5))) e

/-! ## Region 1 -/

/-- The source endpoint's coordinates are the first three features of the source row. -/
theorem coord_src (c : Dev nD) (e : Fin 800000) (k : Fin 3) :
    V3 m ρ c main_v11 (ix2 e k) = m ((c : Thread nD τ).loc main_arg0) (ix2 (srow m c e) (⟨k.val, by omega⟩ : Fin 81)) := by
  show W3 m ρ c (Proc.devRef .tc main_v11) (ix2 e k) = _
  rw [W3_v11]
  unfold srow
  refine (gather_rows_apply (by decide) _ _ _ e k).trans ?_
  refine extractStridedSlice_apply (s := S100000x81) (t := S100000x3) ![0, 0] _ slices_S100000x81_S100000x3_0_0 _ _ ?_
  intro a
  match a with
  | ⟨0, _⟩ => exact (Nat.zero_add _).symm
  | ⟨1, _⟩ => show k.val = 0 + k.val; omega
/-- The destination endpoint's coordinates are the first three features of the destination row. -/
theorem coord_dst (c : Dev nD) (e : Fin 800000) (k : Fin 3) :
    V3 m ρ c main_v18 (ix2 e k) = m ((c : Thread nD τ).loc main_arg0) (ix2 (drow m c e) (⟨k.val, by omega⟩ : Fin 81)) := by
  show W3 m ρ c (Proc.devRef .tc main_v18) (ix2 e k) = _
  rw [W3_v18]
  unfold drow
  refine (gather_rows_apply (by decide) _ _ _ e k).trans ?_
  refine extractStridedSlice_apply (s := S100000x81) (t := S100000x3) ![0, 0] _ slices_S100000x81_S100000x3_0_0 _ _ ?_
  intro a
  match a with
  | ⟨0, _⟩ => exact (Nat.zero_add _).symm
  | ⟨1, _⟩ => show k.val = 0 + k.val; omega
/-- The full projection gathered at the destination row. -/
theorem proj_dst (c : Dev nD) (e : Fin 800000) (j : Fin 64) :
    V3 m ρ c main_v25 (ix2 e j) = (dat0 (F := Ideal) (V1 m ρ) c).arrAt 3 cfg0.N (ix2 (drow m c e) j) := by
  show W3 m ρ c (Proc.devRef .tc main_v25) (ix2 e j) = _
  rw [W3_v25]
  unfold drow
  exact gather_rows_apply (by decide) _ _ _ e j
/-- The tail projection gathered at the source row. -/
theorem proj_src (c : Dev nD) (e : Fin 800000) (j : Fin 64) :
    V3 m ρ c main_v32 (ix2 e j) = (dat0 (F := Ideal) (V1 m ρ) c).arrAt 4 cfg0.N (ix2 (srow m c e) j) := by
  show W3 m ρ c (Proc.devRef .tc main_v32) (ix2 e j) = _
  rw [W3_v32]
  unfold srow
  exact gather_rows_apply (by decide) _ _ _ e j
/-- The edge's bond row. -/
theorem bond_in (c : Dev nD) (e : Fin 800000) (k : Fin 22) :
    V3 m ρ c main_arg1 (ix2 e k) = m ((c : Thread nD τ).loc main_arg1) (ix2 e k) := by
  show W3 m ρ c (Proc.devRef .tc main_arg1) (ix2 e k) = _
  rw [W3_arg1]
/-- The bond rows of the weight matrix are its rows 81..102. -/
theorem wbond_in (c : Dev nD) (k : Fin 22) (j : Fin 64) :
    V3 m ρ c main_v2 (ix2 k j) = m ((c : Thread nD τ).loc main_arg3) (ix2 (⟨k.val + 81, by omega⟩ : Fin 103) j) := by
  show W3 m ρ c (Proc.devRef .tc main_v2) (ix2 k j) = _
  rw [W3_v2]
  refine extractStridedSlice_apply (s := S103x64) (t := S22x64) ![81, 0] _ slices_S103x64_S22x64_81_0 _ _ ?_
  intro a
  match a with
  | ⟨0, _⟩ => show k.val + 81 = 81 + k.val; omega
  | ⟨1, _⟩ => show j.val = 0 + j.val; omega

/-! ## Region 0 -/

theorem feat_in0 (c : Dev nD) (n : Fin 100000) (k : Fin 81) :
    V1 m ρ c main_arg0 (ix2 n k) = m ((c : Thread nD τ).loc main_arg0) (ix2 n k) := by
  show W1 m ρ c (Proc.devRef .tc main_arg0) (ix2 n k) = _
  rw [W1_arg0]
/-- The full projection's weights are rows 0..80 of the weight matrix. -/
theorem wfull_in (c : Dev nD) (k : Fin 81) (j : Fin 64) :
    V1 m ρ c main_v0 (ix2 k j) = m ((c : Thread nD τ).loc main_arg3) (ix2 (⟨k.val, by omega⟩ : Fin 103) j) := by
  show W1 m ρ c (Proc.devRef .tc main_v0) (ix2 k j) = _
  rw [W1_v0]
  refine extractStridedSlice_apply (s := S103x64) (t := S81x64) ![0, 0] _ slices_S103x64_S81x64_0_0 _ _ ?_
  intro a
  match a with
  | ⟨0, _⟩ => show k.val = 0 + k.val; omega
  | ⟨1, _⟩ => show j.val = 0 + j.val; omega
/-- The tail projection's weights are rows 3..80 of the weight matrix. -/
theorem wtail_in (c : Dev nD) (k : Fin 78) (j : Fin 64) :
    V1 m ρ c main_v1 (ix2 k j) = m ((c : Thread nD τ).loc main_arg3) (ix2 (⟨k.val + 3, by omega⟩ : Fin 103) j) := by
  show W1 m ρ c (Proc.devRef .tc main_v1) (ix2 k j) = _
  rw [W1_v1]
  refine extractStridedSlice_apply (s := S103x64) (t := S78x64) ![3, 0] _ slices_S103x64_S78x64_3_0 _ _ ?_
  intro a
  match a with
  | ⟨0, _⟩ => show k.val + 3 = 3 + k.val; omega
  | ⟨1, _⟩ => show j.val = 0 + j.val; omega

/-! ## Region 2 -/

theorem feat_in2 (c : Dev nD) (n : Fin 100000) (k : Fin 81) :
    V5 m ρ c main_arg0 (ix2 n k) = m ((c : Thread nD τ).loc main_arg0) (ix2 n k) := by
  show W5 m ρ c (Proc.devRef .tc main_arg0) (ix2 n k) = _
  rw [W5_arg0]
theorem wself_in (c : Dev nD) (k : Fin 81) (j : Fin 64) :
    V5 m ρ c main_arg2 (ix2 k j) = m ((c : Thread nD τ).loc main_arg2) (ix2 k j) := by
  show W5 m ρ c (Proc.devRef .tc main_arg2) (ix2 k j) = _
  rw [W5_arg2]

end Cert.KernelIdeal.Inputs

end
-- ==== Proof.NodeRegions.lean ====
import proofs.«130521_j49357764165669_2_alg».proof.Proof.Gen.KernelIdeal.Frame
import Idealize.ShloMosaic.Lib.ValueIdx
import Idealize.ShloMosaic.Lib.Pipeline.Value
import Idealize.ShloMosaic.PureOps.Ideal.Laws

set_option maxRecDepth 16384

/-! # The two node regions' output arrays in closed form

The projection region (two products of the feature array with weight arrays, written to two outputs) and the node-update
region (one product plus the aggregate array) each run over 20 grid points of 5000 rows. Here each output array after its
region is read as ONE function of the arrays the region finds at entry, entry by entry: a body's product at an index is
the sum over the contracted positions; a row-blocked window's block at point `t` is rows 5000 t … 5000 t + 4999 of its
array and a weight window's block is its whole array; the 20 row blocks cover the 100000 rows. -/

noncomputable section

namespace Cert.KernelIdeal.NodeVal

open Cert.KernelIdeal Cert.KernelIdeal.Gen Idealize.ShloMosaic Idealize.ShloMosaic.TcCoe Idealize.ShloMosaic.ValueIdx
open Idealize.ShloMosaic.Pipeline (Dat)

/-! ## The bodies' products at an index -/

/-- The dimension numbers of the [5000,81]·[81,64] product (axis 1 of the left against axis 0 of the right). -/
abbrev D81 : DotDims S5000x81 S81x64 S5000x64 := dot_S5000x81_S81x64_S5000x64_1_0_0_1_n_n
/-- The dimension numbers of the [5000,78]·[78,64] product. -/
abbrev D78 : DotDims S5000x78 S78x64 S5000x64 := dot_S5000x78_S78x64_S5000x64_1_0_0_1_n_n

/-- Left operand's row coordinate under D81: the output's row. -/
theorem D81_lhs0 (i : S5000x64.Idx) (q : D81.contr.Idx) : (D81.lhsIdx i q 0).val = (i 0).val := by
  unfold DotDims.lhsIdx
  rw [dif_neg (show ¬(0 : Fin S5000x81.rank) ∈ D81.lhsBatch by decide), dif_pos (show (0 : Fin S5000x81.rank) ∈ D81.lhsNonContracting by decide)]
  rfl
/-- Left operand's column coordinate under D81: the contracted position. -/
theorem D81_lhs1 (i : S5000x64.Idx) (q : D81.contr.Idx) : (D81.lhsIdx i q 1).val = (q ⟨0, by decide⟩).val :=
  D81.lhsIdx_val_of_single rfl i q
/-- Right operand's row coordinate under D81: the contracted position. -/
theorem D81_rhs0 (i : S5000x64.Idx) (q : D81.contr.Idx) : (D81.rhsIdx i q 0).val = (q ⟨0, by decide⟩).val :=
  D81.rhsIdx_val_of_single rfl i q
/-- Right operand's column coordinate under D81: the output's column. -/
theorem D81_rhs1 (i : S5000x64.Idx) (q : D81.contr.Idx) : (D81.rhsIdx i q 1).val = (i 1).val := by
  unfold DotDims.rhsIdx
  rw [dif_neg (show ¬(1 : Fin S81x64.rank) ∈ D81.rhsBatch by decide), dif_pos (show (1 : Fin S81x64.rank) ∈ D81.rhsNonContracting by decide)]
  rfl

/-- A [5000,81]·[81,64] product into the zero accumulator, read at row `r` and column `j`: the sum over the 81
    contracted positions of left (r, k) times right (k, j). -/
theorem matmul81_apply (a : FVec Ideal S5000x81 .bf16) (b : FVec Ideal S81x64 .bf16) (r : Fin 5000) (j : Fin 64) :
    matmul D81 none a b (constant (F := Ideal) S5000x64 .f32 0x00000000#32) (ix2 r j)
      = ∑ k : Fin 81, a (ix2 r k) * b (ix2 k j) := by
  refine (Ideal.matmul_constant_zero_apply D81 none a b (ix2 r j)).trans ?_
  rw [← Equiv.sum_comp (contrEquiv1 D81 81 rfl rfl).symm]
  refine Finset.sum_congr rfl fun k _ => ?_
  have hk := contrEquiv1_symm_val D81 81 rfl rfl k
  have el : D81.lhsIdx (ix2 r j) ((contrEquiv1 D81 81 rfl rfl).symm k) = ix2 r k := funext fun a => Fin.ext (by
    match a with
    | ⟨0, _⟩ => exact D81_lhs0 _ _
    | ⟨1, _⟩ => exact (D81_lhs1 _ _).trans hk)
  have er : D81.rhsIdx (ix2 r j) ((contrEquiv1 D81 81 rfl rfl).symm k) = ix2 k j := funext fun a => Fin.ext (by
    match a with
    | ⟨0, _⟩ => exact (D81_rhs0 _ _).trans hk
    | ⟨1, _⟩ => exact D81_rhs1 _ _)
  rw [el, er]

/-- Left operand's row coordinate under D78: the output's row. -/
theorem D78_lhs0 (i : S5000x64.Idx) (q : D78.contr.Idx) : (D78.lhsIdx i q 0).val = (i 0).val := by
  unfold DotDims.lhsIdx
  rw [dif_neg (show ¬(0 : Fin S5000x78.rank) ∈ D78.lhsBatch by decide), dif_pos (show (0 : Fin S5000x78.rank) ∈ D78.lhsNonContracting by decide)]
  rfl
/-- Left operand's column coordinate under D78: the contracted position. -/
theorem D78_lhs1 (i : S5000x64.Idx) (q : D78.contr.Idx) : (D78.lhsIdx i q 1).val = (q ⟨0, by decide⟩).val :=
  D78.lhsIdx_val_of_single rfl i q
/-- Right operand's row coordinate under D78: the contracted position. -/
theorem D78_rhs0 (i : S5000x64.Idx) (q : D78.contr.Idx) : (D78.rhsIdx i q 0).val = (q ⟨0, by decide⟩).val :=
  D78.rhsIdx_val_of_single rfl i q
/-- Right operand's column coordinate under D78: the output's column. -/
theorem D78_rhs1 (i : S5000x64.Idx) (q : D78.contr.Idx) : (D78.rhsIdx i q 1).val = (i 1).val := by
  unfold DotDims.rhsIdx
  rw [dif_neg (show ¬(1 : Fin S78x64.rank) ∈ D78.rhsBatch by decide), dif_pos (show (1 : Fin S78x64.rank) ∈ D78.rhsNonContracting by decide)]
  rfl

/-- A [5000,78]·[78,64] product into the zero accumulator, read at row `r` and column `j`: the sum over the 78
    contracted positions of left (r, k) times right (k, j). -/
theorem matmul78_apply (a : FVec Ideal S5000x78 .bf16) (b : FVec Ideal S78x64 .bf16) (r : Fin 5000) (j : Fin 64) :
    matmul D78 none a b (constant (F := Ideal) S5000x64 .f32 0x00000000#32) (ix2 r j)
      = ∑ k : Fin 78, a (ix2 r k) * b (ix2 k j) := by
  refine (Ideal.matmul_constant_zero_apply D78 none a b (ix2 r j)).trans ?_
  rw [← Equiv.sum_comp (contrEquiv1 D78 78 rfl rfl).symm]
  refine Finset.sum_congr rfl fun k _ => ?_
  have hk := contrEquiv1_symm_val D78 78 rfl rfl k
  have el : D78.lhsIdx (ix2 r j) ((contrEquiv1 D78 78 rfl rfl).symm k) = ix2 r k := funext fun a => Fin.ext (by
    match a with
    | ⟨0, _⟩ => exact D78_lhs0 _ _
    | ⟨1, _⟩ => exact (D78_lhs1 _ _).trans hk)
  have er : D78.rhsIdx (ix2 r j) ((contrEquiv1 D78 78 rfl rfl).symm k) = ix2 k j := funext fun a => Fin.ext (by
    match a with
    | ⟨0, _⟩ => exact (D78_rhs0 _ _).trans hk
    | ⟨1, _⟩ => exact D78_rhs1 _ _)
  rw [el, er]

/-! ## The payloads at an index -/

/-- The first projection's payload at row `r`, column `j`: the block's 81 feature columns against the 81 weight rows
    (the roundings to bf16 and back are the identity on ideal values). -/
theorem pay_full_apply (x0 : Vec Ideal S5000x81 .f32) (x1 : Vec Ideal S81x64 .f32) (r : Fin 5000) (j : Fin 64) :
    k0_pay1 (F := Ideal) x0 x1 (ix2 r j) = ∑ k : Fin 81, x0 (ix2 r k) * x1 (ix2 k j) := by
  unfold k0_pay1
  refine (truncf_apply (φ := .f32) (ψ := .bf16) _ _ (ix2 r j)).trans ?_
  refine (matmul81_apply _ _ r j).trans ?_
  refine Finset.sum_congr rfl fun k _ => ?_
  rw [shapeCast_self]
  rfl

/-- The second projection's payload at row `r`, column `j`: the block's feature columns 3 … 80 (the slice at column
    offset 3) against the 78 weight rows. -/
theorem pay_tail_apply (x0 : Vec Ideal S5000x81 .f32) (x2 : Vec Ideal S78x64 .f32) (r : Fin 5000) (j : Fin 64) :
    k0_pay2 (F := Ideal) x0 x2 (ix2 r j) = ∑ k : Fin 78, x0 (ix2 r ⟨k.val + 3, by omega⟩) * x2 (ix2 k j) := by
  unfold k0_pay2
  refine (truncf_apply (φ := .f32) (ψ := .bf16) _ _ (ix2 r j)).trans ?_
  refine (matmul78_apply _ _ r j).trans ?_
  refine Finset.sum_congr rfl fun k _ => ?_
  rw [shapeCast_self]
  refine congrArg (· * x2 (ix2 k j)) ?_
  show extractStridedSlice S5000x78 ![0, 3] x0 slices_S5000x81_o0_3_S5000x78 (ix2 r k) = _
  exact extractStridedSlice_apply ![0, 3] x0 slices_S5000x81_o0_3_S5000x78 (ix2 r k) (ix2 r ⟨k.val + 3, by omega⟩) (fun a => by
    match a with
    | ⟨0, _⟩ => show r.val = 0 + r.val; omega
    | ⟨1, _⟩ => show k.val + 3 = 3 + k.val; omega)

/-- The node update's payload at row `r`, column `j`: the block's 81 feature columns against the 81 weight rows, plus
    the aggregated block's entry. -/
theorem pay_node_apply (x0 : Vec Ideal S5000x81 .f32) (x1 : Vec Ideal S81x64 .f32) (x2 : Vec Ideal S5000x64 .f32) (r : Fin 5000) (j : Fin 64) :
    k2_pay1 (F := Ideal) x0 x1 x2 (ix2 r j) = (∑ k : Fin 81, x0 (ix2 r k) * x1 (ix2 k j)) + x2 (ix2 r j) := by
  unfold k2_pay1
  refine (addf_apply (φ := .f32) _ _ (ix2 r j)).trans ?_
  rw [shapeCast_self]
  refine congrArg (· + x2 (ix2 r j)) ?_
  refine (matmul81_apply _ _ r j).trans ?_
  rfl

/-! ## From blocks to the arrays: the projection region -/

/-- The zero offsets on the two axes, as the constant function. -/
theorem hz : (![0, 0] : Fin 2 → Nat) = fun _ => 0 := funext fun a => by fin_cases a <;> rfl

variable (V : (c : Dev nD) → (b : Ref sig .tc) → Buf (Elt Ideal) ((c : Thread nD τ).loc b))

/-- The projection region's index maps, decided over its 20 grid points: the row-blocked windows (features, both
    outputs) sit at block (t, 0), the weights' windows at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block at point `t` is rows 5000 t … 5000 t + 4999 of the feature array. -/
theorem feat_blk0 (c : Dev nD) (t : Fin cfg0.N) (r : Fin 5000) (k : Fin 81) (i : S100000x81.Idx)
    (hi0 : (i 0).val = t.val * 5000 + r.val) (hi1 : (i 1).val = k.val) :
    (iblk0 V c 0 t : Vec Ideal S5000x81 .f32) (ix2 r k) = (V c main_arg0 : S100000x81.Idx → EReal) i := by
  obtain ⟨e0, e1, -⟩ := idx_facts0 t
  show V c main_arg0 (((cfg0.win 0).blk t).view.emb (ix2 r k)) = V c main_arg0 i
  refine congrArg _ (funext fun a => Fin.ext ?_)
  match a with
  | ⟨0, _⟩ => show win0_0.index t (0 : Fin 2) * 5000 + 1 * r.val = (i 0).val; omega
  | ⟨1, _⟩ => show win0_0.index t (1 : Fin 2) * 81 + 1 * k.val = (i 1).val; omega

/-- The first weight window's block at every point is the whole [81,64] weight array. -/
theorem wfull_blk0 (c : Dev nD) (t : Fin cfg0.N) (k : Fin 81) (j : Fin 64) :
    (iblk0 V c 1 t : Vec Ideal S81x64 .f32) (ix2 k j) = (V c main_v0 : S81x64.Idx → EReal) (ix2 k j) := by
  obtain ⟨-, -, e2, e3, -⟩ := idx_facts0 t
  show V c main_v0 (((cfg0.win 1).blk t).view.emb (ix2 k j)) = V c main_v0 (ix2 k j)
  refine congrArg _ (funext fun a => Fin.ext ?_)
  match a with
  | ⟨0, _⟩ => show win0_1.index t (0 : Fin 2) * 81 + 1 * k.val = k.val; omega
  | ⟨1, _⟩ => show win0_1.index t (1 : Fin 2) * 64 + 1 * j.val = j.val; omega

/-- The second weight window's block at every point is the whole [78,64] weight array. -/
theorem wtail_blk0 (c : Dev nD) (t : Fin cfg0.N) (k : Fin 78) (j : Fin 64) :
    (iblk0 V c 2 t : Vec Ideal S78x64 .f32) (ix2 k j) = (V c main_v1 : S78x64.Idx → EReal) (ix2 k j) := by
  obtain ⟨-, -, -, -, e4, e5, -⟩ := idx_facts0 t
  show V c main_v1 (((cfg0.win 2).blk t).view.emb (ix2 k j)) = V c main_v1 (ix2 k j)
  refine congrArg _ (funext fun a => Fin.ext ?_)
  match a with
  | ⟨0, _⟩ => show win0_2.index t (0 : Fin 2) * 78 + 1 * k.val = k.val; omega
  | ⟨1, _⟩ => show win0_2.index t (1 : Fin 2) * 64 + 1 * j.val = j.val; omega

/-- The first projection of the whole feature array: entry (n, j) is the sum over the 81 feature columns of
    feature (n, k) times weight (k, j). -/
def projFull (a : S100000x81.Idx → EReal) (w : S81x64.Idx → EReal) : S100000x64.Idx → EReal :=
  fun i => ∑ k : Fin 81, a (ix2 ⟨(i 0).val, (i 0).isLt⟩ k) * w (ix2 k ⟨(i 1).val, (i 1).isLt⟩)

/-- The second projection of the whole feature array: entry (n, j) is the sum over the 78 rows of the second weight
    array of feature (n, k + 3) times weight (k, j). -/
def projTail (a : S100000x81.Idx → EReal) (w : S78x64.Idx → EReal) : S100000x64.Idx → EReal :=
  fun i => ∑ k : Fin 78, a (ix2 ⟨(i 0).val, (i 0).isLt⟩ ⟨k.val + 3, by omega⟩) * w (ix2 k ⟨(i 1).val, (i 1).isLt⟩)

/-- The first projection at (n, j). -/
theorem projFull_apply (a : S100000x81.Idx → EReal) (w : S81x64.Idx → EReal) (n : Fin 100000) (j : Fin 64) :
    projFull a w (ix2 n j) = ∑ k : Fin 81, a (ix2 n k) * w (ix2 k j) := rfl

/-- The second projection at (n, j). -/
theorem projTail_apply (a : S100000x81.Idx → EReal) (w : S78x64.Idx → EReal) (n : Fin 100000) (j : Fin 64) :
    projTail a w (ix2 n j) = ∑ k : Fin 78, a (ix2 n ⟨k.val + 3, by omega⟩) * w (ix2 k j) := rfl

/-- What point `t` writes back into the first output is block `t` of the first projection. -/
theorem flushed_full_eq (c : Dev nD) (t : Fin cfg0.N) :
    (dat0 (F := Ideal) V c).flushed 3 t = ((cfg0.win 3).blk t).view.read (Elt Ideal) (projFull (V c main_arg0) (V c main_v0)) := by
  show (cfg0.win 3).cut (grid0.coords t) ((dat0 V c).after 3 t) = _
  rw [after0_3]
  unfold out0_3
  rw [View.canon_unit_zero hz]
  simp only [View.ld_unit_zero (S := S5000x81) hz, View.ld_unit_zero (S := S81x64) hz]
  funext y
  obtain ⟨r, j, rfl⟩ : ∃ (r : Fin 5000) (j : Fin 64), y = ix2 r j := ⟨y 0, y 1, eq_ix2 y⟩
  obtain ⟨-, -, -, -, -, -, e6, e7, -⟩ := idx_facts0 t
  show k0_pay1 (F := Ideal) (iblk0 V c 0 t) (iblk0 V c 1 t) (ix2 r j) = projFull (V c main_arg0) (V c main_v0) (((cfg0.win 3).blk t).view.emb (ix2 r j))
  refine (pay_full_apply _ _ r j).trans ?_
  unfold projFull
  refine Finset.sum_congr rfl fun k _ => ?_
  have h0 : (((cfg0.win 3).blk t).view.emb (ix2 r j) 0).val = t.val * 5000 + r.val := by
    show win0_3.index t (0 : Fin 2) * 5000 + 1 * r.val = _; omega
  have h1 : (((cfg0.win 3).blk t).view.emb (ix2 r j) 1).val = j.val := by
    show win0_3.index t (1 : Fin 2) * 64 + 1 * j.val = _; omega
  refine congrArg₂ (· * ·)
    (feat_blk0 V c t r k (ix2 ⟨(((cfg0.win 3).blk t).view.emb (ix2 r j) 0).val, (((cfg0.win 3).blk t).view.emb (ix2 r j) 0).isLt⟩ k) h0 rfl)
    ((wfull_blk0 V c t k j).trans (congrArg (V c main_v0 : S81x64.Idx → EReal) (funext fun a => Fin.ext (by
      match a with
      | ⟨0, _⟩ => rfl
      | ⟨1, _⟩ => exact h1.symm))))

/-- An index of the output array is in point `t`'s block iff each coordinate is in the block's range on its axis. -/
theorem mem_blk_full (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v3_0).slice (win0_3.rect t)).set ↔ _
  rw [View.set_slice_whole, Rect.mem_set_unit]
  exact Iff.rfl

/-- Every index of the output array is written back: row `n` lies in the block of point `n / 5000` (20 blocks of 5000
    rows are the 100000 rows), and a block has all 64 columns. -/
theorem cover_full (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < grid0.N := by rw [N_0]; omega
  obtain ⟨-, -, -, -, -, -, o0, o1, -⟩ := idx_facts0 ⟨(i 0).val / 5000, hlt⟩
  have o0 : win0_3.index ⟨(i 0).val / 5000, hlt⟩ (0 : Fin 2) = (i 0).val / 5000 := o0
  refine ⟨⟨(i 0).val / 5000, hlt⟩, flush0_3 _, ?_⟩
  rw [mem_blk_full]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    omega

/-- THE FIRST PROJECTION: after the projection region the first output array is the first projection of the feature
    and weight arrays as the region finds them. -/
theorem proj_full_array (c : Dev nD) : (dat0 (F := Ideal) V c).arrAt 3 cfg0.N = projFull (V c main_arg0) (V c main_v0) :=
  (dat0 (F := Ideal) V c).arrAt_eq_of_cover 3 (projFull (V c main_arg0) (V c main_v0)) (fun t _ => flushed_full_eq V c t) cover_full

/-- The same entry by entry: at (n, j) the sum over the 81 feature columns k of feature (n, k) times weight (k, j). -/
theorem proj_full_closed (c : Dev nD) (n : Fin 100000) (j : Fin 64) :
    (dat0 (F := Ideal) V c).arrAt 3 cfg0.N (ix2 n j)
      = ∑ k : Fin 81, HMul.hMul (α := EReal) (β := EReal) (V c main_arg0 (ix2 n k)) (V c main_v0 (ix2 k j)) :=
  congrFun (proj_full_array V c) (ix2 n j)

/-- What point `t` writes back into the second output is block `t` of the second projection. -/
theorem flushed_tail_eq (c : Dev nD) (t : Fin cfg0.N) :
    (dat0 (F := Ideal) V c).flushed 4 t = ((cfg0.win 4).blk t).view.read (Elt Ideal) (projTail (V c main_arg0) (V c main_v1)) := by
  show (cfg0.win 4).cut (grid0.coords t) ((dat0 V c).after 4 t) = _
  rw [after0_4]
  unfold out0_4
  rw [View.canon_unit_zero hz]
  simp only [View.ld_unit_zero (S := S5000x81) hz, View.ld_unit_zero (S := S78x64) hz]
  funext y
  obtain ⟨r, j, rfl⟩ : ∃ (r : Fin 5000) (j : Fin 64), y = ix2 r j := ⟨y 0, y 1, eq_ix2 y⟩
  obtain ⟨-, -, -, -, -, -, -, -, e8, e9⟩ := idx_facts0 t
  show k0_pay2 (F := Ideal) (iblk0 V c 0 t) (iblk0 V c 2 t) (ix2 r j) = projTail (V c main_arg0) (V c main_v1) (((cfg0.win 4).blk t).view.emb (ix2 r j))
  refine (pay_tail_apply _ _ r j).trans ?_
  unfold projTail
  refine Finset.sum_congr rfl fun k _ => ?_
  have h0 : (((cfg0.win 4).blk t).view.emb (ix2 r j) 0).val = t.val * 5000 + r.val := by
    show win0_4.index t (0 : Fin 2) * 5000 + 1 * r.val = _; omega
  have h1 : (((cfg0.win 4).blk t).view.emb (ix2 r j) 1).val = j.val := by
    show win0_4.index t (1 : Fin 2) * 64 + 1 * j.val = _; omega
  refine congrArg₂ (· * ·)
    (feat_blk0 V c t r ⟨k.val + 3, by omega⟩ (ix2 ⟨(((cfg0.win 4).blk t).view.emb (ix2 r j) 0).val, (((cfg0.win 4).blk t).view.emb (ix2 r j) 0).isLt⟩ ⟨k.val + 3, by omega⟩) h0 rfl)
    ((wtail_blk0 V c t k j).trans (congrArg (V c main_v1 : S78x64.Idx → EReal) (funext fun a => Fin.ext (by
      match a with
      | ⟨0, _⟩ => rfl
      | ⟨1, _⟩ => exact h1.symm))))

/-- An index of the output array is in point `t`'s block iff each coordinate is in the block's range on its axis. -/
theorem mem_blk_tail (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v3_1).slice (win0_4.rect t)).set ↔ _
  rw [View.set_slice_whole, Rect.mem_set_unit]
  exact Iff.rfl

/-- Every index of the output array is written back: row `n` lies in the block of point `n / 5000` (20 blocks of 5000
    rows are the 100000 rows), and a block has all 64 columns. -/
theorem cover_tail (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hlt : (i 0).val / 5000 < grid0.N := by rw [N_0]; omega
  obtain ⟨-, -, -, -, -, -, -, -, o0, o1⟩ := idx_facts0 ⟨(i 0).val / 5000, hlt⟩
  have o0 : win0_4.index ⟨(i 0).val / 5000, hlt⟩ (0 : Fin 2) = (i 0).val / 5000 := o0
  refine ⟨⟨(i 0).val / 5000, hlt⟩, flush0_4 _, ?_⟩
  rw [mem_blk_tail]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    omega
  | ⟨1, _⟩ =>
    show win0_4.index ⟨(i 0).val / 5000, hlt⟩ (1 : Fin 2) * 64 ≤ (i 1).val ∧ (i 1).val < win0_4.index ⟨(i 0).val / 5000, hlt⟩ (1 : Fin 2) * 64 + 64
    omega

/-- THE SECOND PROJECTION: after the projection region the second output array is the second projection of the
    feature and weight arrays as the region finds them. -/
theorem proj_tail_array (c : Dev nD) : (dat0 (F := Ideal) V c).arrAt 4 cfg0.N = projTail (V c main_arg0) (V c main_v1) :=
  (dat0 (F := Ideal) V c).arrAt_eq_of_cover 4 (projTail (V c main_arg0) (V c main_v1)) (fun t _ => flushed_tail_eq V c t) cover_tail

/-- The same entry by entry: at (n, j) the sum over the 78 rows k of the second weight array of feature (n, k + 3)
    times weight (k, j). -/
theorem proj_tail_closed (c : Dev nD) (n : Fin 100000) (j : Fin 64) :
    (dat0 (F := Ideal) V c).arrAt 4 cfg0.N (ix2 n j)
      = ∑ k : Fin 78, HMul.hMul (α := EReal) (β := EReal) (V c main_arg0 (ix2 n ⟨k.val + 3, by omega⟩)) (V c main_v1 (ix2 k j)) :=
  congrFun (proj_tail_array V c) (ix2 n j)

/-! ## From blocks to the array: the node-update region -/

/-- The node-update region's index maps, decided over its 20 grid points: the row-blocked windows (features,
    aggregate, output) sit at block (t, 0), the weights' window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature window's block at point `t` is rows 5000 t … 5000 t + 4999 of the feature array. -/
theorem feat_blk2 (c : Dev nD) (t : Fin cfg2.N) (r : Fin 5000) (k : Fin 81) (i : S100000x81.Idx)
    (hi0 : (i 0).val = t.val * 5000 + r.val) (hi1 : (i 1).val = k.val) :
    (iblk2 V c 0 t : Vec Ideal S5000x81 .f32) (ix2 r k) = (V c main_arg0 : S100000x81.Idx → EReal) i := by
  obtain ⟨e0, e1, -⟩ := idx_facts2 t
  show V c main_arg0 (((cfg2.win 0).blk t).view.emb (ix2 r k)) = V c main_arg0 i
  refine congrArg _ (funext fun a => Fin.ext ?_)
  match a with
  | ⟨0, _⟩ => show win2_0.index t (0 : Fin 2) * 5000 + 1 * r.val = (i 0).val; omega
  | ⟨1, _⟩ => show win2_0.index t (1 : Fin 2) * 81 + 1 * k.val = (i 1).val; omega

/-- The weight window's block at every point is the whole [81,64] weight array. -/
theorem w_blk2 (c : Dev nD) (t : Fin cfg2.N) (k : Fin 81) (j : Fin 64) :
    (iblk2 V c 1 t : Vec Ideal S81x64 .f32) (ix2 k j) = (V c main_arg2 : S81x64.Idx → EReal) (ix2 k j) := by
  obtain ⟨-, -, e2, e3, -⟩ := idx_facts2 t
  show V c main_arg2 (((cfg2.win 1).blk t).view.emb (ix2 k j)) = V c main_arg2 (ix2 k j)
  refine congrArg _ (funext fun a => Fin.ext ?_)
  match a with
  | ⟨0, _⟩ => show win2_1.index t (0 : Fin 2) * 81 + 1 * k.val = k.val; omega
  | ⟨1, _⟩ => show win2_1.index t (1 : Fin 2) * 64 + 1 * j.val = j.val; omega

/-- The aggregate window's block at point `t` is rows 5000 t … 5000 t + 4999 of the aggregate array. -/
theorem agg_blk2 (c : Dev nD) (t : Fin cfg2.N) (r : Fin 5000) (j : Fin 64) (i : S100000x64.Idx)
    (hi0 : (i 0).val = t.val * 5000 + r.val) (hi1 : (i 1).val = j.val) :
    (iblk2 V c 2 t : Vec Ideal S5000x64 .f32) (ix2 r j) = (V c main_v37 : S100000x64.Idx → EReal) i := by
  obtain ⟨-, -, -, -, e4, e5, -⟩ := idx_facts2 t
  show V c main_v37 (((cfg2.win 2).blk t).view.emb (ix2 r j)) = V c main_v37 i
  refine congrArg _ (funext fun a => Fin.ext ?_)
  match a with
  | ⟨0, _⟩ => show win2_2.index t (0 : Fin 2) * 5000 + 1 * r.val = (i 0).val; omega
  | ⟨1, _⟩ => show win2_2.index t (1 : Fin 2) * 64 + 1 * j.val = (i 1).val; omega

/-- The node update of the whole arrays: entry (n, j) is the sum over the 81 feature columns of feature (n, k) times
    weight (k, j), plus the aggregate's entry (n, j). -/
def nodeOut (a : S100000x81.Idx → EReal) (w : S81x64.Idx → EReal) (g : S100000x64.Idx → EReal) : S100000x64.Idx → EReal :=
  fun i => (∑ k : Fin 81, a (ix2 ⟨(i 0).val, (i 0).isLt⟩ k) * w (ix2 k ⟨(i 1).val, (i 1).isLt⟩)) + g i

/-- The node update at (n, j). -/
theorem nodeOut_apply (a : S100000x81.Idx → EReal) (w : S81x64.Idx → EReal) (g : S100000x64.Idx → EReal) (n : Fin 100000) (j : Fin 64) :
    nodeOut a w g (ix2 n j) = (∑ k : Fin 81, a (ix2 n k) * w (ix2 k j)) + g (ix2 n j) := rfl

/-- What point `t` writes back into the output is block `t` of the node update. -/
theorem flushed_node_eq (c : Dev nD) (t : Fin cfg2.N) :
    (dat2 (F := Ideal) V c).flushed 3 t = ((cfg2.win 3).blk t).view.read (Elt Ideal) (nodeOut (V c main_arg0) (V c main_arg2) (V c main_v37)) := by
  show (cfg2.win 3).cut (grid2.coords t) ((dat2 V c).after 3 t) = _
  rw [after2_3]
  unfold out2_3
  rw [View.canon_unit_zero hz]
  simp only [View.ld_unit_zero (S := S5000x81) hz, View.ld_unit_zero (S := S81x64) hz, View.ld_unit_zero (S := S5000x64) hz]
  funext y
  obtain ⟨r, j, rfl⟩ : ∃ (r : Fin 5000) (j : Fin 64), y = ix2 r j := ⟨y 0, y 1, eq_ix2 y⟩
  obtain ⟨-, -, -, -, -, -, e6, e7⟩ := idx_facts2 t
  show k2_pay1 (F := Ideal) (iblk2 V c 0 t) (iblk2 V c 1 t) (iblk2 V c 2 t) (ix2 r j) = nodeOut (V c main_arg0) (V c main_arg2) (V c main_v37) (((cfg2.win 3).blk t).view.emb (ix2 r j))
  refine (pay_node_apply _ _ _ r j).trans ?_
  unfold nodeOut
  have h0 : (((cfg2.win 3).blk t).view.emb (ix2 r j) 0).val = t.val * 5000 + r.val := by
    show win2_3.index t (0 : Fin 2) * 5000 + 1 * r.val = _; omega
  have h1 : (((cfg2.win 3).blk t).view.emb (ix2 r j) 1).val = j.val := by
    show win2_3.index t (1 : Fin 2) * 64 + 1 * j.val = _; omega
  refine congrArg₂ (· + ·) (Finset.sum_congr rfl fun k _ => ?_) (agg_blk2 V c t r j _ h0 h1)
  refine congrArg₂ (· * ·)
    (feat_blk2 V c t r k (ix2 ⟨(((cfg2.win 3).blk t).view.emb (ix2 r j) 0).val, (((cfg2.win 3).blk t).view.emb (ix2 r j) 0).isLt⟩ k) h0 rfl)
    ((w_blk2 V c t k j).trans (congrArg (V c main_arg2 : S81x64.Idx → EReal) (funext fun a => Fin.ext (by
      match a with
      | ⟨0, _⟩ => rfl
      | ⟨1, _⟩ => exact h1.symm))))

/-- An index of the output array is in point `t`'s block iff each coordinate is in the block's range on its axis. -/
theorem mem_blk_node (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v38).slice (win2_3.rect t)).set ↔ _
  rw [View.set_slice_whole, Rect.mem_set_unit]
  exact Iff.rfl

/-- Every index of the output array is written back: row `n` lies in the block of point `n / 5000` (20 blocks of 5000
    rows are the 100000 rows), and a block has all 64 columns. -/
theorem cover_node (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < grid2.N := by rw [N_2]; omega
  obtain ⟨-, -, -, -, -, -, o0, o1⟩ := idx_facts2 ⟨(i 0).val / 5000, hlt⟩
  have o0 : win2_3.index ⟨(i 0).val / 5000, hlt⟩ (0 : Fin 2) = (i 0).val / 5000 := o0
  refine ⟨⟨(i 0).val / 5000, hlt⟩, flush2_3 _, ?_⟩
  rw [mem_blk_node]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    omega

/-- THE NODE UPDATE: after the node-update region the output array is the node update of the feature, weight and
    aggregate arrays as the region finds them. -/
theorem node_out_array (c : Dev nD) : (dat2 (F := Ideal) V c).arrAt 3 cfg2.N = nodeOut (V c main_arg0) (V c main_arg2) (V c main_v37) :=
  (dat2 (F := Ideal) V c).arrAt_eq_of_cover 3 (nodeOut (V c main_arg0) (V c main_arg2) (V c main_v37)) (fun t _ => flushed_node_eq V c t) cover_node

/-- The same entry by entry: at (n, j) the sum over the 81 feature columns k of feature (n, k) times weight (k, j),
    plus the aggregate's entry (n, j). -/
theorem node_out_closed (c : Dev nD) (n : Fin 100000) (j : Fin 64) :
    (dat2 (F := Ideal) V c).arrAt 3 cfg2.N (ix2 n j)
      = HAdd.hAdd (α := EReal) (β := EReal) (∑ k : Fin 81, HMul.hMul (α := EReal) (β := EReal) (V c main_arg0 (ix2 n k)) (V c main_arg2 (ix2 k j)))
          (V c main_v37 (ix2 n j)) :=
  congrFun (node_out_array V c) (ix2 n j)

end Cert.KernelIdeal.NodeVal

end
-- ==== Proof.EdgeSpec.lean ====
/-
  The per-edge quantities both programs compute, as plain functions on the extended reals.

  For an edge whose endpoints have coordinates `p` (the source) and `q` (the destination) in the first three
  feature columns: the squared distance `sumsq p q`, the distance with the literal 0.01 standing in for a
  vanishing distance `dsafe p q`, and the edge's contribution to one output column in the two arrangements
  that are to be shown equal — the factored one (the reciprocal squared distance times a sum of two node
  projections, plus the bond part) and the flat one (one sum over all 103 rows of the weight matrix).
-/
import Idealize.ShloMosaic.PureOps.Ideal
import Idealize.ShloMosaic.PureOps.Ideal.Laws
import Idealize.ShloMosaic.Lib.ValueIdx

noncomputable section

namespace Cert.EdgeSpec

open Idealize.ShloMosaic

/-- The squared Euclidean distance of two points with three coordinates. -/
def sumsq (p q : Fin 3 → EReal) : EReal := ∑ k : Fin 3, (p k - q k) * (p k - q k)

/-- The distance `√(sumsq p q)` where it is positive, the literal 0.01 (its binary value) otherwise. -/
def dsafe (p q : Fin 3 → EReal) : EReal :=
  Scalar.select (Ideal.cmp .ogt (Ideal.sqrt (sumsq p q)) (Ideal.ofBits .f32 0x00000000#32))
    (Ideal.sqrt (sumsq p q)) (Ideal.ofBits .f32 0x3C23D70A#32)

/-- The factored arrangement: `(1 / d²) · (u + v) + ∑ₖ βₖ · wbₖ`, with `u`, `v` the two node projections the edge
    gathers, `β` the edge's bond row and `wb` the bond rows of the weight column. -/
def factored (p q : Fin 3 → EReal) (u v : EReal) (β wb : Fin 22 → EReal) : EReal :=
  Ideal.div (Ideal.ofBits .f32 0x3F800000#32) (dsafe p q * dsafe p q) * (u + v) + ∑ k : Fin 22, β k * wb k

/-- The flat arrangement: the edge vector `ev` (103 entries) against the weight column `w`. -/
def flat (ev w : Fin 103 → EReal) : EReal := ∑ k : Fin 103, ev k * w k

end Cert.EdgeSpec

end
-- ==== Proof.EdgeRegion.lean ====
/-
  The edge region's output array in closed form.

  The region walks 200 grid points; point `t` takes rows `4000 t … 4000 t + 3999` of the six edge-blocked arrays (the
  source and destination coordinates, the two gathered node projections, the bond rows) together with the whole block of
  bond weights, and writes the same rows of the output. For one edge (one row) and one output column the body computes
  `(1 / d²) · (u + v) + ∑ₖ βₖ · wbₖ`: `d` the distance of the two endpoints, with the literal 0.01 standing in where it
  vanishes, `u`, `v` the two gathered projections, `β` the bond row and `wb` the bond rows of the weight column.

  First the body's arithmetic is read at an index `(r, j)` of a block: the pointwise operations entry by entry, the sum
  over the three coordinates as a sum over `Fin 3`, the one-column casts and the column broadcast at their one source
  entry, the matrix product into a zero accumulator as a sum over the 22 bond features. Then the blocks are assembled:
  what point `t` writes back is block `t` of ONE function of the whole arrays, row `e` lies in the block of point
  `e / 4000`, and `200 × 4000 = 800000`, so the array ends holding that function everywhere.
-/
import proofs.«130521_j49357764165669_2_alg».proof.Proof.Gen.KernelIdeal.Frame
import proofs.«130521_j49357764165669_2_alg».proof.Proof.EdgeSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.EdgeVal

open Cert.KernelIdeal Cert.KernelIdeal.Gen Idealize.ShloMosaic Idealize.ShloMosaic.TcCoe Idealize.ShloMosaic.ValueIdx Cert.EdgeSpec
open Idealize.ShloMosaic.Pipeline (Dat)

/-! ## Layout operations of the body, read at an index -/

/-- A vector of `a` entries viewed as one column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` laid along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the three coordinates of a row. -/
theorem laneSum_apply (src : FVec Ideal S4000x3 .f32) (h : S4000x3.Reduces [1] S4000) (hφ : FKind.Formats .f32)
    (hacc : (0x00000000#32 : BitVec 32) = FKind.add.neutral .f32 hφ) (r : Fin 4000) :
    multiReduction (F := Ideal) .add [1] S4000 src 0x00000000#32 h hφ hacc (ix1 r) = ∑ k : Fin 3, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- The row coordinate of the bond block under the product's index map: the output's row. -/
theorem bond_lhs_row (i : S4000x64.Idx) (q : dot_S4000x22_S22x64_S4000x64_1_0_0_1_n_n.contr.Idx) :
    (dot_S4000x22_S22x64_S4000x64_1_0_0_1_n_n.lhsIdx i q 0).val = (i 0).val := by
  unfold DotDims.lhsIdx
  rw [dif_neg (show ¬(0 : Fin S4000x22.rank) ∈ dot_S4000x22_S22x64_S4000x64_1_0_0_1_n_n.lhsBatch by decide), dif_pos (show (0 : Fin S4000x22.rank) ∈ dot_S4000x22_S22x64_S4000x64_1_0_0_1_n_n.lhsNonContracting by decide)]
  rfl

/-- The column coordinate of the weight block under the product's index map: the output's column. -/
theorem bond_rhs_col (i : S4000x64.Idx) (q : dot_S4000x22_S22x64_S4000x64_1_0_0_1_n_n.contr.Idx) :
    (dot_S4000x22_S22x64_S4000x64_1_0_0_1_n_n.rhsIdx i q 1).val = (i 1).val := by
  unfold DotDims.rhsIdx
  rw [dif_neg (show ¬(1 : Fin S22x64.rank) ∈ dot_S4000x22_S22x64_S4000x64_1_0_0_1_n_n.rhsBatch by decide), dif_pos (show (1 : Fin S22x64.rank) ∈ dot_S4000x22_S22x64_S4000x64_1_0_0_1_n_n.rhsNonContracting by decide)]
  rfl

/-- The bond rows against the bond weights: the matrix product into a zero accumulator, as a sum over the 22 bond features. -/
theorem bond_apply (lhs : FVec Ideal S4000x22 .bf16) (rhs : FVec Ideal S22x64 .bf16) (r : Fin 4000) (j : Fin 64) :
    matmul (F := Ideal) dot_S4000x22_S22x64_S4000x64_1_0_0_1_n_n none lhs rhs (constant (F := Ideal) S4000x64 .f32 0x00000000#32) (ix2 r j)
      = ∑ k : Fin 22, lhs (ix2 r k) * rhs (ix2 k j) := by
  refine (Ideal.matmul_constant_zero_apply dot_S4000x22_S22x64_S4000x64_1_0_0_1_n_n none lhs rhs (ix2 r j)).trans ?_
  rw [← Equiv.sum_comp (ValueIdx.contrEquiv1 dot_S4000x22_S22x64_S4000x64_1_0_0_1_n_n 22 rfl rfl).symm]
  refine Finset.sum_congr rfl fun k _ => ?_
  have hk := ValueIdx.contrEquiv1_symm_val dot_S4000x22_S22x64_S4000x64_1_0_0_1_n_n 22 rfl rfl k
  have el : dot_S4000x22_S22x64_S4000x64_1_0_0_1_n_n.lhsIdx (ix2 r j) ((ValueIdx.contrEquiv1 dot_S4000x22_S22x64_S4000x64_1_0_0_1_n_n 22 rfl rfl).symm k) = ix2 r k :=
    funext fun a => Fin.ext (by
      match a with
      | ⟨0, _⟩ => exact bond_lhs_row _ _
      | ⟨1, _⟩ => exact (dot_S4000x22_S22x64_S4000x64_1_0_0_1_n_n.lhsIdx_val_of_single rfl (ix2 r j) _).trans hk)
  have er : dot_S4000x22_S22x64_S4000x64_1_0_0_1_n_n.rhsIdx (ix2 r j) ((ValueIdx.contrEquiv1 dot_S4000x22_S22x64_S4000x64_1_0_0_1_n_n 22 rfl rfl).symm k) = ix2 k j :=
    funext fun a => Fin.ext (by
      match a with
      | ⟨0, _⟩ => exact (dot_S4000x22_S22x64_S4000x64_1_0_0_1_n_n.rhsIdx_val_of_single rfl (ix2 r j) _).trans hk
      | ⟨1, _⟩ => exact bond_rhs_col _ _)
  rw [el, er]

/-! ## The body's arithmetic at an index -/

/-- The square root of a vector, entry by entry. -/
theorem sqrt_apply {s : Shape} {φ : FTy} (a : FVec Ideal s φ) (i : s.Idx) : sqrt a i = Ideal.sqrt (a i) := rfl

/-- The comparison of two ideal values is the linear order's. -/
theorem cmpf_ideal {φ : FTy} (p : CmpFPredicate) (x y : Ideal φ) : FloatOps.cmpf p x y = Ideal.cmp p x y := rfl

/-- The body's arithmetic at row `r`, column `j` of a block of 4000 edges: the factored arrangement of that edge's
    endpoints' coordinates, its two gathered node projections, its bond row and the bond rows of the weight column. -/
theorem payload_apply (x0 x1 : FVec Ideal S4000x3 .f32) (x2 x3 : FVec Ideal S4000x64 .bf16) (x4 : FVec Ideal S4000x22 .f32)
    (x5 : FVec Ideal S22x64 .f32) (r : Fin 4000) (j : Fin 64) :
    k1_pay1 (F := Ideal) x0 x1 x2 x3 x4 x5 (ix2 r j)
      = factored (fun k : Fin 3 => x0 (ix2 r k)) (fun k : Fin 3 => x1 (ix2 r k)) (x2 (ix2 r j)) (x3 (ix2 r j))
          (fun k : Fin 22 => x4 (ix2 r k)) (fun k : Fin 22 => x5 (ix2 k j)) := by
  have hcol : shapeCast S4000x1 (multiReduction (F := Ideal) .add [1] S4000 (mulf (subf x0 x1) (subf x0 x1)) 0x00000000#32
        reduces_S4000x3_S4000 (.inl rfl) rfl) shapeCasts_S4000_S4000x1 (ix2 r (0 : Fin 1))
      = ∑ k : Fin 3, (x0 (ix2 r k) - x1 (ix2 r k)) * (x0 (ix2 r k) - x1 (ix2 r k)) :=
    (shapeCast_a_a1_apply _ shapeCasts_S4000_S4000x1 r 0).trans
      (laneSum_apply (mulf (subf x0 x1) (subf x0 x1)) reduces_S4000x3_S4000 (.inl rfl) rfl r)
  unfold k1_pay1 factored dsafe sumsq
  simp only [shapeCast_self]
  rw [truncf_apply, addf_apply, mulf_apply, broadcastTo_a1_ab_apply, bond_apply]
  simp only [divf_apply, mulf_apply, select_apply, cmpf_apply, broadcast_apply, addf_apply, extf_apply, truncf_apply,
    sqrt_apply, cmpf_ideal, Ideal.ofBits_def]
  rw [hcol]

/-! ## From the blocks to the array -/

section Array

variable (V : (c : Dev nD) → (b : Ref sig .tc) → Buf (Elt Ideal) ((c : Thread nD τ).loc b))

/-- Edge `e`'s contribution to output column `j`, from the arrays the region finds: the factored arrangement of the two
    endpoints' coordinates, the two gathered node projections, the edge's bond row and the bond rows of the weight column. -/
abbrev edgeAt (c : Dev nD) (e : Fin 800000) (j : Fin 64) : EReal :=
  factored (fun k : Fin 3 => V c main_v11 (ix2 e k)) (fun k : Fin 3 => V c main_v18 (ix2 e k))
    (V c main_v25 (ix2 e j)) (V c main_v32 (ix2 e j))
    (fun k : Fin 22 => V c main_arg1 (ix2 e k)) (fun k : Fin 22 => V c main_v2 (ix2 k j))

/-- The whole output array: every edge's contribution to every column. -/
def edgeArr (c : Dev nD) : S800000x64.Idx → EReal := fun i => edgeAt V c (i 0) (i 1)

theorem zero_offsets : (![0, 0] : Fin 2 → Nat) = fun _ => 0 := funext fun a => by fin_cases a <;> rfl

/-- The index maps over the grid: point `t` stages rows `4000 t … 4000 t + 3999` of each edge-blocked array, all of
    its columns, and the whole of the bond weights. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is its block of the whole output array. -/
theorem flushed_eq (c : Dev nD) (t : Fin cfg1.N) :
    (dat1 (F := Ideal) V c).flushed 6 t = ((cfg1.win 6).blk t).view.read (Elt Ideal) (edgeArr V c) := by
  show (cfg1.win 6).cut (grid1.coords t) ((dat1 (F := Ideal) V c).after 6 t) = _
  rw [after1_6]
  unfold out1_6
  rw [View.canon_unit_zero zero_offsets]
  simp only [View.ld_unit_zero (S := S4000x3) zero_offsets, View.ld_unit_zero (S := S4000x64) zero_offsets,
    View.ld_unit_zero (S := S4000x22) zero_offsets, View.ld_unit_zero (S := S22x64) zero_offsets]
  obtain ⟨f00, f01, f10, f11, f20, f21, f30, f31, f40, f41, f50, f51, f60, f61⟩ := index_facts t
  have hN : t.val < 200 := lt_of_lt_of_eq t.isLt N_1
  funext y
  have h0 : (y 0).val < 4000 := (y 0).isLt
  have h1 : (y 1).val < 64 := (y 1).isLt
  obtain ⟨r, hr⟩ : ∃ r : Fin 4000, r.val = (y 0).val := ⟨⟨_, h0⟩, rfl⟩
  obtain ⟨j, hj⟩ : ∃ j : Fin 64, j.val = (y 1).val := ⟨⟨_, h1⟩, rfl⟩
  obtain ⟨e, he⟩ : ∃ e : Fin 800000, e.val = t.val * 4000 + (y 0).val := ⟨⟨_, by omega⟩, rfl⟩
  have hx : win1_6.xinj (grid1.coords t) y = ix2 r j := funext fun a => Fin.ext (by
    match a with
    | ⟨0, _⟩ => exact hr.symm
    | ⟨1, _⟩ => exact hj.symm)
  have hemb : ((cfg1.win 6).blk t).view.emb y = ix2 e j := funext fun a => Fin.ext (by
    match a with
    | ⟨0, _⟩ => show win1_6.index t (0 : Fin 2) * 4000 + 1 * (y 0).val = e.val; omega
    | ⟨1, _⟩ => show win1_6.index t (1 : Fin 2) * 64 + 1 * (y 1).val = j.val; omega)
  have e0 : ∀ k : Fin 3, ((cfg1.win 0).blk t).view.emb (ix2 r k) = ix2 e k := fun k => funext fun a => Fin.ext (by
    match a with
    | ⟨0, _⟩ => show win1_0.index t (0 : Fin 2) * 4000 + 1 * r.val = e.val; omega
    | ⟨1, _⟩ => show win1_0.index t (1 : Fin 2) * 3 + 1 * k.val = k.val; omega)
  have e1 : ∀ k : Fin 3, ((cfg1.win 1).blk t).view.emb (ix2 r k) = ix2 e k := fun k => funext fun a => Fin.ext (by
    match a with
    | ⟨0, _⟩ => show win1_1.index t (0 : Fin 2) * 4000 + 1 * r.val = e.val; omega
    | ⟨1, _⟩ => show win1_1.index t (1 : Fin 2) * 3 + 1 * k.val = k.val; omega)
  have e2 : ((cfg1.win 2).blk t).view.emb (ix2 r j) = ix2 e j := funext fun a => Fin.ext (by
    match a with
    | ⟨0, _⟩ => show win1_2.index t (0 : Fin 2) * 4000 + 1 * r.val = e.val; omega
    | ⟨1, _⟩ => show win1_2.index t (1 : Fin 2) * 64 + 1 * j.val = j.val; omega)
  have e3 : ((cfg1.win 3).blk t).view.emb (ix2 r j) = ix2 e j := funext fun a => Fin.ext (by
    match a with
    | ⟨0, _⟩ => show win1_3.index t (0 : Fin 2) * 4000 + 1 * r.val = e.val; omega
    | ⟨1, _⟩ => show win1_3.index t (1 : Fin 2) * 64 + 1 * j.val = j.val; omega)
  have e4 : ∀ k : Fin 22, ((cfg1.win 4).blk t).view.emb (ix2 r k) = ix2 e k := fun k => funext fun a => Fin.ext (by
    match a with
    | ⟨0, _⟩ => show win1_4.index t (0 : Fin 2) * 4000 + 1 * r.val = e.val; omega
    | ⟨1, _⟩ => show win1_4.index t (1 : Fin 2) * 22 + 1 * k.val = k.val; omega)
  have e5 : ∀ k : Fin 22, ((cfg1.win 5).blk t).view.emb (ix2 k j) = ix2 k j := fun k => funext fun a => Fin.ext (by
    match a with
    | ⟨0, _⟩ => show win1_5.index t (0 : Fin 2) * 22 + 1 * k.val = k.val; omega
    | ⟨1, _⟩ => show win1_5.index t (1 : Fin 2) * 64 + 1 * j.val = j.val; omega)
  refine (congrArg (k1_pay1 (F := Ideal) (iblk1 V c 0 t) (iblk1 V c 1 t) (iblk1 V c 2 t) (iblk1 V c 3 t) (iblk1 V c 4 t) (iblk1 V c 5 t)) hx).trans ?_
  refine (payload_apply (iblk1 V c 0 t) (iblk1 V c 1 t) (iblk1 V c 2 t) (iblk1 V c 3 t) (iblk1 V c 4 t) (iblk1 V c 5 t) r j).trans ?_
  refine Eq.trans ?_ (congrArg (edgeArr V c) hemb).symm
  show factored (fun k : Fin 3 => V c main_v11 (((cfg1.win 0).blk t).view.emb (ix2 r k)))
      (fun k : Fin 3 => V c main_v18 (((cfg1.win 1).blk t).view.emb (ix2 r k)))
      (V c main_v25 (((cfg1.win 2).blk t).view.emb (ix2 r j))) (V c main_v32 (((cfg1.win 3).blk t).view.emb (ix2 r j)))
      (fun k : Fin 22 => V c main_arg1 (((cfg1.win 4).blk t).view.emb (ix2 r k)))
      (fun k : Fin 22 => V c main_v2 (((cfg1.win 5).blk t).view.emb (ix2 k j)))
    = edgeAt V c e j
  simp only [e0, e1, e2, e3, e4, e5]

/-- An index of the output array is in point `t`'s block iff each coordinate is in the block's range on its axis. -/
theorem mem_block (t : Fin cfg1.N) (i : S800000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v33).slice (win1_6.rect t)).set ↔ _
  rw [View.set_slice_whole, Rect.mem_set_unit]
  exact Iff.rfl

/-- Every edge row lies in the block of the point numbered by its quotient by 4000: the 200 blocks of 4000 rows tile
    the 800000 rows. -/
theorem covered (i : S800000x64.Idx) :
    ∃ t : Fin cfg1.N, (cfg1.win 6).flush t = true ∧ i ∈ ((cfg1.win 6).blk t).view.set := by
  have hi0 : (i 0).val < 800000 := (i 0).isLt
  have hi1 : (i 1).val < 64 := (i 1).isLt
  obtain ⟨t, ht⟩ : ∃ t : Fin cfg1.N, t.val = (i 0).val / 4000 :=
    ⟨⟨(i 0).val / 4000, lt_of_lt_of_eq (show (i 0).val / 4000 < 200 by omega) N_1.symm⟩, rfl⟩
  obtain ⟨-, -, -, -, -, -, -, -, -, -, -, -, f60, f61⟩ := index_facts t
  refine ⟨t, flush1_6 t, ?_⟩
  rw [mem_block]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The output array after the region: every edge's contribution to every column. -/
theorem edge_array (c : Dev nD) : (dat1 (F := Ideal) V c).arrAt 6 cfg1.N = edgeArr V c :=
  (dat1 (F := Ideal) V c).arrAt_eq_of_cover 6 (edgeArr V c) (fun t _ => flushed_eq V c t) covered

/-- THE EDGE REGION'S OUTPUT, entry by entry: row `e`, column `j` of the array the region leaves is edge `e`'s
    contribution to column `j` in the factored arrangement — the reciprocal of the squared (guarded) distance of its two
    endpoints times the sum of the two gathered node projections, plus its bond row against the bond rows of the weight
    column — of the arrays as the region finds them. -/
theorem edge_closed (c : Dev nD) (e : Fin 800000) (j : Fin 64) :
    (dat1 (F := Ideal) V c).arrAt 6 cfg1.N (ix2 e j)
      = factored (fun k : Fin 3 => V c main_v11 (ix2 e k)) (fun k : Fin 3 => V c main_v18 (ix2 e k))
          (V c main_v25 (ix2 e j)) (V c main_v32 (ix2 e j))
          (fun k : Fin 22 => V c main_arg1 (ix2 e k)) (fun k : Fin 22 => V c main_v2 (ix2 k j)) :=
  congrFun (edge_array V c) (ix2 e j)

end Array

end Cert.KernelIdeal.EdgeVal

end
-- ==== Proof.RefEdge.lean ====
/-
  The reference's edge stage, read: for edge `e`, with `s` and `t` the feature rows its source and destination
  indices select, the edge vector has `x[t, k] / d²` in its first three entries, `(x[s, k] + x[t, k]) / d²` in entries
  3..80 and the edge's bond row in entries 81..102, where `d` is the distance of the two endpoints' coordinates (0.01
  when it vanishes); the edge's contribution to output column `j` is that vector against column `j` of the weights.
-/
import proofs.«130521_j49357764165669_2_alg».proof.Proof.Gen.ReferenceIdeal.Read
import proofs.«130521_j49357764165669_2_alg».proof.Proof.RowGather
import proofs.«130521_j49357764165669_2_alg».proof.Proof.EdgeSpec
import Idealize.ShloMosaic.Lib.Pipeline.Value
import Idealize.ShloMosaic.Lib.ValueIdx
import Idealize.ShloMosaic.PureOps.Ideal.Laws

set_option maxRecDepth 16384

noncomputable section

namespace Cert.ReferenceIdeal.EdgeRead

open Cert.ReferenceIdeal Cert.ReferenceIdeal.Gen Cert.ReferenceIdeal.Read Idealize.ShloMosaic Idealize.ShloMosaic.ValueIdx Cert.EdgeSpec Cert.RowGather

variable (x0 : (⟨S100000x81, .f32⟩ : BufTy).Contents (Elt Ideal)) (x1 : (⟨S800000x22, .f32⟩ : BufTy).Contents (Elt Ideal))
  (x3 : (⟨S103x64, .f32⟩ : BufTy).Contents (Elt Ideal)) (x4 x5 : (⟨S800000, .i32⟩ : BufTy).Contents (Elt Ideal))

/-- The feature row edge `e`'s source index selects. -/
def srow (e : Fin 800000) : Fin 100000 := rowOf 100000 (by decide) (val_main_v5 (F := Ideal) x4) e
/-- The feature row edge `e`'s destination index selects. -/
def drow (e : Fin 800000) : Fin 100000 := rowOf 100000 (by decide) (val_main_v12 (F := Ideal) x5) e

/-- The gathered source rows. -/
theorem gather_src (e : Fin 800000) (k : Fin 81) :
    val_main_v6 (F := Ideal) x0 x4 (ix2 e k) = x0 (ix2 (srow x4 e) k) := by
  unfold val_main_v6 srow
  exact gather_rows_apply (by decide) _ x0 (val_main_v5 (F := Ideal) x4) e k
/-- The gathered destination rows. -/
theorem gather_dst (e : Fin 800000) (k : Fin 81) :
    val_main_v13 (F := Ideal) x0 x5 (ix2 e k) = x0 (ix2 (drow x5 e) k) := by
  unfold val_main_v13 drow
  exact gather_rows_apply (by decide) _ x0 (val_main_v12 (F := Ideal) x5) e k

/-- The source endpoint's coordinates. -/
abbrev pS (e : Fin 800000) : Fin 3 → EReal := fun k => x0 (ix2 (srow x4 e) ⟨k.val, by omega⟩)
/-- The destination endpoint's coordinates. -/
abbrev pT (e : Fin 800000) : Fin 3 → EReal := fun k => x0 (ix2 (drow x5 e) ⟨k.val, by omega⟩)

/-- The squared distance of the endpoints. -/
theorem ref_sumsq (e : Fin 800000) :
    val_main_v18 (F := Ideal) x0 x4 x5 (ix1 e) = sumsq (pS x0 x4 e) (pT x0 x5 e) := by
  rw [val_main_v18_apply, val_main_cst_apply]
  show Ideal.ofBits .f32 0x00000000#32 + _ = _
  rw [Ideal.ofBits_zero_f32, zero_add]
  unfold sumsq
  refine Finset.sum_congr rfl fun k _ => ?_
  have e14 : idx_main_v14 (idx_main_v18 (ix1 e) k) = ix2 e (⟨k.val, by omega⟩ : Fin 81) :=
    funext fun a => Fin.ext (by match a with | ⟨0, _⟩ => rfl | ⟨1, _⟩ => rfl)
  have e15 : idx_main_v15 (idx_main_v18 (ix1 e) k) = ix2 e (⟨k.val, by omega⟩ : Fin 81) :=
    funext fun a => Fin.ext (by match a with | ⟨0, _⟩ => rfl | ⟨1, _⟩ => rfl)
  rw [val_main_v17_apply, val_main_v16_apply, val_main_v14_apply, val_main_v15_apply, e14, e15, gather_src, gather_dst]
  rfl

/-- The distance, 0.01 where it vanishes. -/
theorem ref_d (e : Fin 800000) :
    val_main_v22 (F := Ideal) x0 x4 x5 (ix1 e) = dsafe (pS x0 x4 e) (pT x0 x5 e) := by
  rw [val_main_v22_apply, val_main_v21_apply, val_main_v19_apply, ref_sumsq, val_main_v20_apply, val_main_cst_3_apply,
    val_main_call0_v0_apply, val_main_cst_4_apply]
  rfl

/-- The divisor of the edge's first 81 entries: the squared distance. -/
theorem ref_div (e : Fin 800000) (k : Fin 81) :
    val_main_v30 (F := Ideal) x0 x4 x5 (ix2 e k) = dsafe (pS x0 x4 e) (pT x0 x5 e) * dsafe (pS x0 x4 e) (pT x0 x5 e) := by
  have e29 : idx_main_v29 (idx_main_v30 (ix2 e k)) = ix1 e :=
    funext fun a => Fin.ext (by match a with | ⟨0, _⟩ => rfl)
  rw [val_main_v30_apply, val_main_v29_apply, val_main_v28_apply, e29, ref_d]
  rfl

/-- The squared distance as one name. -/
abbrev dd (e : Fin 800000) : EReal := dsafe (pS x0 x4 e) (pT x0 x5 e) * dsafe (pS x0 x4 e) (pT x0 x5 e)

/-- The combined vector's first three entries are the destination's coordinates. -/
theorem comb_lo (e : Fin 800000) (k : Fin 81) (hk : k.val < 3) :
    val_main_v27 (F := Ideal) x0 x4 x5 (ix2 e k) = x0 (ix2 (drow x5 e) k) := by
  unfold val_main_v27
  rw [concatenate_pair_apply_left (1 : Fin S800000x81.rank) _ _ concatenates_S800000x3_S800000x78_S800000x81_d1 (ix2 e k) rfl
    (ix2 e (⟨k.val, hk⟩ : Fin 3) : S800000x3.Idx) (fun b => by match b with | ⟨0, _⟩ => rfl | ⟨1, _⟩ => rfl)]
  have e23 : idx_main_v23 (ix2 e (⟨k.val, hk⟩ : Fin 3)) = ix2 e k :=
    funext fun a => Fin.ext (by match a with | ⟨0, _⟩ => rfl | ⟨1, _⟩ => rfl)
  rw [val_main_v23_apply, e23, gather_dst]

/-- Its entries past the coordinates are the sums of the two endpoints' features. -/
theorem comb_hi (e : Fin 800000) (k : Fin 81) (hk : 3 ≤ k.val) :
    val_main_v27 (F := Ideal) x0 x4 x5 (ix2 e k) = x0 (ix2 (srow x4 e) k) + x0 (ix2 (drow x5 e) k) := by
  unfold val_main_v27
  have hk' : k.val - 3 < 78 := by omega
  rw [concatenate_pair_apply_right (1 : Fin S800000x81.rank) _ _ concatenates_S800000x3_S800000x78_S800000x81_d1 (ix2 e k) rfl rfl
    (ix2 e (⟨k.val - 3, hk'⟩ : Fin 78) : S800000x78.Idx)
    (fun b hb => by match b with | ⟨0, _⟩ => rfl | ⟨1, _⟩ => exact absurd rfl hb)
    (by show (k.val - 3) + 3 = k.val; omega)]
  have e24 : idx_main_v24 (ix2 e (⟨k.val - 3, hk'⟩ : Fin 78)) = ix2 e k :=
    funext fun a => Fin.ext (by
      match a with
      | ⟨0, _⟩ => rfl
      | ⟨1, _⟩ => show 3 + (k.val - 3) = k.val; omega)
  have e25 : idx_main_v25 (ix2 e (⟨k.val - 3, hk'⟩ : Fin 78)) = ix2 e k :=
    funext fun a => Fin.ext (by
      match a with
      | ⟨0, _⟩ => rfl
      | ⟨1, _⟩ => show 3 + (k.val - 3) = k.val; omega)
  rw [val_main_v26_apply, val_main_v24_apply, val_main_v25_apply, e24, e25, gather_src, gather_dst]
  rfl

/-- Entries 0..2 of the edge vector. -/
theorem ev_lo (e : Fin 800000) (k : Fin 103) (hk : k.val < 3) :
    val_main_v32 (F := Ideal) x0 x1 x4 x5 (ix2 e k)
      = Ideal.div (x0 (ix2 (drow x5 e) (⟨k.val, by omega⟩ : Fin 81))) (dd x0 x4 x5 e) := by
  unfold val_main_v32
  rw [concatenate_pair_apply_left (1 : Fin S800000x103.rank) _ _ concatenates_S800000x81_S800000x22_S800000x103_d1 (ix2 e k) rfl
    (ix2 e (⟨k.val, by omega⟩ : Fin 81) : S800000x81.Idx) (fun b => by match b with | ⟨0, _⟩ => rfl | ⟨1, _⟩ => rfl)]
  rw [val_main_v31_apply, ref_div, comb_lo x0 x4 x5 e _ hk]
  rfl

/-- Entries 3..80 of the edge vector. -/
theorem ev_mid (e : Fin 800000) (k : Fin 103) (h3 : 3 ≤ k.val) (hk : k.val < 81) :
    val_main_v32 (F := Ideal) x0 x1 x4 x5 (ix2 e k)
      = Ideal.div (x0 (ix2 (srow x4 e) (⟨k.val, hk⟩ : Fin 81)) + x0 (ix2 (drow x5 e) (⟨k.val, hk⟩ : Fin 81))) (dd x0 x4 x5 e) := by
  unfold val_main_v32
  rw [concatenate_pair_apply_left (1 : Fin S800000x103.rank) _ _ concatenates_S800000x81_S800000x22_S800000x103_d1 (ix2 e k) rfl
    (ix2 e (⟨k.val, hk⟩ : Fin 81) : S800000x81.Idx) (fun b => by match b with | ⟨0, _⟩ => rfl | ⟨1, _⟩ => rfl)]
  rw [val_main_v31_apply, ref_div, comb_hi x0 x4 x5 e _ h3]
  rfl

/-- Entries 81..102 of the edge vector: the edge's bond row. -/
theorem ev_hi (e : Fin 800000) (k : Fin 103) (hk : 81 ≤ k.val) :
    val_main_v32 (F := Ideal) x0 x1 x4 x5 (ix2 e k) = x1 (ix2 e (⟨k.val - 81, by omega⟩ : Fin 22)) := by
  unfold val_main_v32
  rw [concatenate_pair_apply_right (1 : Fin S800000x103.rank) _ _ concatenates_S800000x81_S800000x22_S800000x103_d1 (ix2 e k) rfl rfl
    (ix2 e (⟨k.val - 81, by omega⟩ : Fin 22) : S800000x22.Idx)
    (fun b hb => by match b with | ⟨0, _⟩ => rfl | ⟨1, _⟩ => exact absurd rfl hb)
    (by show (k.val - 81) + 81 = k.val; omega)]

/-- The edge's contribution to output column `j`: its vector against column `j` of the weights. -/
theorem ref_contrib (e : Fin 800000) (j : Fin 64) :
    val_main_v33 (F := Ideal) x0 x1 x3 x4 x5 (ix2 e j)
      = flat (fun k => val_main_v32 (F := Ideal) x0 x1 x4 x5 (ix2 e k)) (fun k => x3 (ix2 k j)) := by
  rw [val_main_v33_apply]
  unfold flat
  refine Finset.sum_congr rfl fun k _ => ?_
  have el : lidx_main_v33 (ix2 e j) k = ix2 e k :=
    funext fun a => Fin.ext (by match a with | ⟨0, _⟩ => rfl | ⟨1, _⟩ => rfl)
  have er : ridx_main_v33 (ix2 e j) k = ix2 k j :=
    funext fun a => Fin.ext (by match a with | ⟨0, _⟩ => rfl | ⟨1, _⟩ => rfl)
  rw [el, er]

end Cert.ReferenceIdeal.EdgeRead

end
-- ==== Proof.EdgeLaw.lean ====
/-
  The algebra of one edge's contribution, on the extended reals.

  With real coordinates the guarded distance is a positive real, so its square is a nonzero real r and
  division by it is multiplication by the real 1/r. The flat sum over the 103 rows splits into its first 3,
  next 78 and last 22 terms; on each part the edge vector is a real multiple of the gathered rows (or the bond
  row itself), so both arrangements are coercions of real expressions, and the real identity is
  distributivity of 1/r over the sums.
-/
import proofs.«130521_j49357764165669_2_alg».proof.Proof.EdgeSpec

noncomputable section

namespace Cert.EdgeLaw

open Idealize.ShloMosaic Cert.EdgeSpec

/-- The inclusion of the reals into the extended reals commutes with finite sums:
    the coercion of `∑ i ∈ s, f i` is `∑ i ∈ s, (f i : EReal)` (induction on `s`, by additivity of the coercion). -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The binary32 pattern `0x3F800000` (sign 0, exponent 127, fraction 0) denotes `2²³ · 2⁻²³ = 1`. -/
theorem ofBits_one : Ideal.ofBits .f32 0x3F800000#32 = 1 := by
  have h : Ideal.ofBits .f32 0x3F800000#32 = (((8388608 : ℝ) * ((2 : ℝ) ^ 23)⁻¹ : ℝ) : EReal) := by
    simp [Ideal.ofBits, Ideal.ieee]
  rw [h]
  norm_num

/-- The binary32 pattern `0x3C23D70A` (sign 0, exponent 120, fraction 2348810: the literal 0.01) denotes the
    positive real `10737418 · 2⁻³⁰`. -/
theorem lit_real : ∃ r : ℝ, 0 < r ∧ Ideal.ofBits .f32 0x3C23D70A#32 = (r : EReal) := by
  have h : Ideal.ofBits .f32 0x3C23D70A#32 = (((10737418 : ℝ) * ((2 : ℝ) ^ 30)⁻¹ : ℝ) : EReal) := by
    simp [Ideal.ofBits, Ideal.ieee]
  exact ⟨_, by positivity, h⟩

/-- A sum over `Fin (m + n)` is the sum of its first `m` terms plus the sum of its last `n` terms, the latter
    indexed by `k ↦ k + m`. -/
theorem sum_split {M : Type*} [AddCommMonoid M] (m n : ℕ) (F : Fin (m + n) → M) :
    ∑ k, F k = ∑ k : Fin m, F ⟨k.val, by omega⟩ + ∑ k : Fin n, F ⟨k.val + m, by omega⟩ := by
  rw [Fin.sum_univ_add]
  congr 1
  apply Finset.sum_congr rfl
  intro k _
  congr 1
  ext
  simp [add_comm]

/-- The squared distance of two points with real coordinates is the real `∑ₖ (pₖ - qₖ)²`. -/
theorem sumsq_coe (p q : Fin 3 → ℝ) :
    sumsq (fun k => (p k : EReal)) (fun k => (q k : EReal))
      = ((∑ k : Fin 3, (p k - q k) * (p k - q k) : ℝ) : EReal) := by
  unfold sumsq
  rw [coe_sum]
  apply Finset.sum_congr rfl
  intro k _
  rw [EReal.coe_mul, EReal.coe_sub]

/-- The guarded distance of two points with real coordinates is a positive real: `∑ₖ (pₖ - qₖ)²` is a
    nonnegative real, its square root the real square root; either that root is positive and is the value, or
    the positive literal is. -/
theorem dsafe_real (p q : Fin 3 → ℝ) :
    ∃ d : ℝ, 0 < d ∧ dsafe (fun k => (p k : EReal)) (fun k => (q k : EReal)) = (d : EReal) := by
  obtain ⟨l, hl, hlit⟩ := lit_real
  have hs : 0 ≤ ∑ k : Fin 3, (p k - q k) * (p k - q k) :=
    Finset.sum_nonneg (fun k _ => mul_self_nonneg _)
  unfold dsafe
  rw [sumsq_coe, Ideal.sqrt_coe, if_neg (not_lt.mpr hs), Ideal.ofBits_zero_f32, hlit]
  by_cases h : 0 < Real.sqrt (∑ k : Fin 3, (p k - q k) * (p k - q k))
  · refine ⟨_, h, ?_⟩
    have : ((0 : EReal) < ((Real.sqrt (∑ k : Fin 3, (p k - q k) * (p k - q k)) : ℝ) : EReal)) := by
      exact_mod_cast h
    simp [Scalar.select, Ideal.cmp, this]
  · refine ⟨l, hl, ?_⟩
    have : ¬ ((0 : EReal) < ((Real.sqrt (∑ k : Fin 3, (p k - q k) * (p k - q k)) : ℝ) : EReal)) := by
      exact_mod_cast h
    simp [Scalar.select, Ideal.cmp, this]

/-- The square of the guarded distance of two points with real coordinates is a nonzero real (the square of a
    positive real). -/
theorem dsafe_sq_real (p q : Fin 3 → ℝ) :
    ∃ r : ℝ, r ≠ 0 ∧ dsafe (fun k => (p k : EReal)) (fun k => (q k : EReal))
      * dsafe (fun k => (p k : EReal)) (fun k => (q k : EReal)) = (r : EReal) := by
  obtain ⟨d, hd, h⟩ := dsafe_real p q
  exact ⟨d * d, (mul_pos hd hd).ne', by rw [h, EReal.coe_mul]⟩

/-- THE LAW. Let `δ` be the squared guarded distance of `p` and `q`, and let the edge vector `ev` be `aₖ / δ` on
    rows `k < 3`, `(bₖ + aₖ) / δ` on rows `3 ≤ k < 81` and the bond entry `β₍ₖ₋₈₁₎` on rows `81 ≤ k < 103`. Then
    `(1 / δ) · (∑_{k<81} aₖ wₖ + ∑_{3≤k<81} bₖ wₖ) + ∑_{j<22} βⱼ w₍ⱼ₊₈₁₎ = ∑_{k<103} evₖ wₖ`.
    Indeed `δ` is a nonzero real `r`, so `x / δ = x · (1/r)`; splitting the right-hand sum as 3 + 78 + 22 and the
    first sum on the left as 3 + 78, both sides are coercions of real expressions, equal by distributing `1/r`
    over the sums. -/
theorem factored_eq_flat (p q : Fin 3 → ℝ) (a b : Fin 81 → ℝ) (w : Fin 103 → ℝ) (β : Fin 22 → ℝ)
    (ev : Fin 103 → EReal)
    (h1 : ∀ (k : Fin 103) (hk : k.val < 3), ev k = Ideal.div ((a ⟨k.val, by omega⟩ : ℝ) : EReal)
      (dsafe (fun k => (p k : EReal)) (fun k => (q k : EReal))
        * dsafe (fun k => (p k : EReal)) (fun k => (q k : EReal))))
    (h2 : ∀ (k : Fin 103) (h3 : 3 ≤ k.val) (hk : k.val < 81), ev k
      = Ideal.div (((b ⟨k.val, hk⟩ : ℝ) : EReal) + ((a ⟨k.val, hk⟩ : ℝ) : EReal))
      (dsafe (fun k => (p k : EReal)) (fun k => (q k : EReal))
        * dsafe (fun k => (p k : EReal)) (fun k => (q k : EReal))))
    (h3 : ∀ (k : Fin 103) (hk : 81 ≤ k.val), ev k = ((β ⟨k.val - 81, by omega⟩ : ℝ) : EReal)) :
    factored (fun k => (p k : EReal)) (fun k => (q k : EReal))
        (∑ k : Fin 81, ((a k : ℝ) : EReal) * ((w ⟨k.val, by omega⟩ : ℝ) : EReal))
        (∑ k : Fin 78, ((b ⟨k.val + 3, by omega⟩ : ℝ) : EReal) * ((w ⟨k.val + 3, by omega⟩ : ℝ) : EReal))
        (fun k => ((β k : ℝ) : EReal)) (fun k => ((w ⟨k.val + 81, by omega⟩ : ℝ) : EReal))
      = flat ev (fun k => ((w k : ℝ) : EReal)) := by
  obtain ⟨r, hr, hδ⟩ := dsafe_sq_real p q
  rw [hδ] at h1 h2
  -- the flat side: split the 103 rows into 3 + 78 + 22 and read each entry as a real
  have hflat : flat ev (fun k => ((w k : ℝ) : EReal))
      = (((∑ k : Fin 3, a ⟨k.val, by omega⟩ * (1 / r) * w ⟨k.val, by omega⟩)
          + (∑ k : Fin 78, (b ⟨k.val + 3, by omega⟩ + a ⟨k.val + 3, by omega⟩) * (1 / r) * w ⟨k.val + 3, by omega⟩)
          + (∑ k : Fin 22, β k * w ⟨k.val + 81, by omega⟩) : ℝ) : EReal) := by
    unfold flat
    rw [sum_split 81 22 (fun k : Fin 103 => ev k * ((w k : ℝ) : EReal)),
      sum_split 3 78 (fun k : Fin 81 => ev ⟨k.val, by omega⟩ * ((w ⟨k.val, by omega⟩ : ℝ) : EReal))]
    rw [EReal.coe_add, EReal.coe_add, coe_sum, coe_sum, coe_sum]
    congr 1
    · congr 1
      · apply Finset.sum_congr rfl
        intro k _
        rw [h1 ⟨k.val, by omega⟩ (by simp), Ideal.div_coe hr, ← EReal.coe_mul, ← EReal.coe_mul]
      · apply Finset.sum_congr rfl
        intro k _
        rw [h2 ⟨k.val + 3, by omega⟩ (by simp) (by simp; omega), Ideal.div_coe hr, ← EReal.coe_add,
          ← EReal.coe_mul, ← EReal.coe_mul]
    · apply Finset.sum_congr rfl
      intro k _
      rw [h3 ⟨k.val + 81, by omega⟩ (by simp), ← EReal.coe_mul]
      congr 3
  -- the factored side as a real
  have hfact : factored (fun k => (p k : EReal)) (fun k => (q k : EReal))
        (∑ k : Fin 81, ((a k : ℝ) : EReal) * ((w ⟨k.val, by omega⟩ : ℝ) : EReal))
        (∑ k : Fin 78, ((b ⟨k.val + 3, by omega⟩ : ℝ) : EReal) * ((w ⟨k.val + 3, by omega⟩ : ℝ) : EReal))
        (fun k => ((β k : ℝ) : EReal)) (fun k => ((w ⟨k.val + 81, by omega⟩ : ℝ) : EReal))
      = (((1 / r) * ((∑ k : Fin 81, a k * w ⟨k.val, by omega⟩)
            + (∑ k : Fin 78, b ⟨k.val + 3, by omega⟩ * w ⟨k.val + 3, by omega⟩))
          + (∑ k : Fin 22, β k * w ⟨k.val + 81, by omega⟩) : ℝ) : EReal) := by
    unfold factored
    rw [hδ, ofBits_one, Ideal.div_coe hr, one_mul]
    simp only [← EReal.coe_mul, ← coe_sum, ← EReal.coe_add]
  rw [hflat, hfact, EReal.coe_eq_coe_iff]
  -- the real identity
  rw [sum_split 3 78 (fun k : Fin 81 => a k * w ⟨k.val, by omega⟩)]
  have e1 : ∑ k : Fin 3, a ⟨k.val, by omega⟩ * (1 / r) * w ⟨k.val, by omega⟩
      = (1 / r) * ∑ k : Fin 3, a ⟨k.val, by omega⟩ * w ⟨k.val, by omega⟩ := by
    rw [Finset.mul_sum]
    exact Finset.sum_congr rfl (fun k _ => by ring)
  have e2 : ∑ k : Fin 78, (b ⟨k.val + 3, by omega⟩ + a ⟨k.val + 3, by omega⟩) * (1 / r) * w ⟨k.val + 3, by omega⟩
      = (1 / r) * ((∑ k : Fin 78, a ⟨k.val + 3, by omega⟩ * w ⟨k.val + 3, by omega⟩)
          + ∑ k : Fin 78, b ⟨k.val + 3, by omega⟩ * w ⟨k.val + 3, by omega⟩) := by
    rw [← Finset.sum_add_distrib, Finset.mul_sum]
    exact Finset.sum_congr rfl (fun k _ => by ring)
  rw [e1, e2]
  ring

end Cert.EdgeLaw

end
-- ==== Proof.Bridge.lean ====
/-
  The kernel's result array is the reference's result term of the same argument arrays.

  Per edge `e` and output column `j` the kernel forms `(1/d²)·(U[t, j] + V[s, j]) + ∑ₖ bond[e, k]·w[81+k, j]`, with
  `U[n, j] = ∑_{k<81} x[n, k]·w[k, j]` and `V[n, j] = ∑_{k<78} x[n, 3+k]·w[3+k, j]` computed once per node, while the
  reference forms `∑_{k<103} ev[e, k]·w[k, j]` over the concatenated edge vector. With every feature, bond and weight
  entry a real number and `d²` a nonzero real these agree by distributivity. Both programs then scatter-add the
  contributions by the same indices into a zero array and add the node term `∑_{k<81} x[n, k]·ws[k, j]`.
-/
import proofs.«130521_j49357764165669_2_alg».proof.Proof.KernelChain
import proofs.«130521_j49357764165669_2_alg».proof.Proof.Inputs
import proofs.«130521_j49357764165669_2_alg».proof.Proof.NodeRegions
import proofs.«130521_j49357764165669_2_alg».proof.Proof.EdgeRegion
import proofs.«130521_j49357764165669_2_alg».proof.Proof.RefEdge
import proofs.«130521_j49357764165669_2_alg».proof.Proof.EdgeLaw

set_option maxRecDepth 16384

noncomputable section

namespace Cert.Bridge

open Cert.KernelIdeal Cert.KernelIdeal.Gen Cert.KernelIdeal.Chain Cert.KernelIdeal.Inputs
open Cert.KernelIdeal.NodeVal Cert.KernelIdeal.EdgeVal
open Cert.EdgeSpec Cert.EdgeLaw Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- Both programs select the same source row for an edge. -/
theorem srow_eq (e : Fin 800000) : srow m c e = Cert.ReferenceIdeal.EdgeRead.srow (m ((c : Thread nD τ).loc main_arg4)) e := rfl
/-- Both programs select the same destination row for an edge. -/
theorem drow_eq (e : Fin 800000) : drow m c e = Cert.ReferenceIdeal.EdgeRead.drow (m ((c : Thread nD τ).loc main_arg5)) e := rfl

/-- THE EDGE CONTRIBUTIONS AGREE, entry by entry, when the features, the bond rows and the weights are real. -/
theorem contrib_eq (h0 : ∀ i, ∃ r : ℝ, (m ((c : Thread nD τ).loc main_arg0)) i = (r : EReal)) (h1 : ∀ i, ∃ r : ℝ, (m ((c : Thread nD τ).loc main_arg1)) i = (r : EReal))
    (h3 : ∀ i, ∃ r : ℝ, (m ((c : Thread nD τ).loc main_arg3)) i = (r : EReal)) (e : Fin 800000) (j : Fin 64) :
    (dat1 (F := Ideal) (V3 m ρ) c).arrAt 6 cfg1.N (ix2 e j)
      = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 e j) := by
  choose f0 hf0 using h0
  choose f1 hf1 using h1
  choose f3 hf3 using h3
  rw [edge_closed (V3 m ρ) c e j, Cert.ReferenceIdeal.EdgeRead.ref_contrib]
  have hp : (fun k : Fin 3 => V3 m ρ c main_v11 (ix2 e k))
      = fun k : Fin 3 => ((f0 (ix2 (Cert.ReferenceIdeal.EdgeRead.srow (m ((c : Thread nD τ).loc main_arg4)) e) (⟨k.val, by omega⟩ : Fin 81)) : ℝ) : EReal) :=
    funext fun k => by rw [coord_src, srow_eq, hf0]
  have hq : (fun k : Fin 3 => V3 m ρ c main_v18 (ix2 e k))
      = fun k : Fin 3 => ((f0 (ix2 (Cert.ReferenceIdeal.EdgeRead.drow (m ((c : Thread nD τ).loc main_arg5)) e) (⟨k.val, by omega⟩ : Fin 81)) : ℝ) : EReal) :=
    funext fun k => by rw [coord_dst, drow_eq, hf0]
  have hu : V3 m ρ c main_v25 (ix2 e j)
      = ∑ k : Fin 81, ((f0 (ix2 (Cert.ReferenceIdeal.EdgeRead.drow (m ((c : Thread nD τ).loc main_arg5)) e) k) : ℝ) : EReal) * ((f3 (ix2 (⟨k.val, by omega⟩ : Fin 103) j) : ℝ) : EReal) := by
    rw [proj_dst, drow_eq, proj_full_closed (V1 m ρ) c _ j]
    show @Eq EReal _ _
    exact Finset.sum_congr rfl fun k _ => by rw [feat_in0, wfull_in, hf0, hf3]
  have hv : V3 m ρ c main_v32 (ix2 e j)
      = ∑ k : Fin 78, ((f0 (ix2 (Cert.ReferenceIdeal.EdgeRead.srow (m ((c : Thread nD τ).loc main_arg4)) e) (⟨k.val + 3, by omega⟩ : Fin 81)) : ℝ) : EReal) * ((f3 (ix2 (⟨k.val + 3, by omega⟩ : Fin 103) j) : ℝ) : EReal) := by
    rw [proj_src, srow_eq, proj_tail_closed (V1 m ρ) c _ j]
    show @Eq EReal _ _
    exact Finset.sum_congr rfl fun k _ => by rw [feat_in0, wtail_in, hf0, hf3]
  have hβ : (fun k : Fin 22 => V3 m ρ c main_arg1 (ix2 e k)) = fun k : Fin 22 => ((f1 (ix2 e k) : ℝ) : EReal) :=
    funext fun k => by rw [bond_in, hf1]
  have hwb : (fun k : Fin 22 => V3 m ρ c main_v2 (ix2 k j))
      = fun k : Fin 22 => ((f3 (ix2 (⟨k.val + 81, by omega⟩ : Fin 103) j) : ℝ) : EReal) :=
    funext fun k => by rw [wbond_in, hf3]
  have hw : (fun k : Fin 103 => (m ((c : Thread nD τ).loc main_arg3)) (ix2 k j)) = fun k : Fin 103 => ((f3 (ix2 k j) : ℝ) : EReal) :=
    funext fun k => hf3 _
  have hpS : Cert.ReferenceIdeal.EdgeRead.pS (m ((c : Thread nD τ).loc main_arg0)) (m ((c : Thread nD τ).loc main_arg4)) e
      = fun k : Fin 3 => ((f0 (ix2 (Cert.ReferenceIdeal.EdgeRead.srow (m ((c : Thread nD τ).loc main_arg4)) e) (⟨k.val, by omega⟩ : Fin 81)) : ℝ) : EReal) := funext fun k => hf0 _
  have hpT : Cert.ReferenceIdeal.EdgeRead.pT (m ((c : Thread nD τ).loc main_arg0)) (m ((c : Thread nD τ).loc main_arg5)) e
      = fun k : Fin 3 => ((f0 (ix2 (Cert.ReferenceIdeal.EdgeRead.drow (m ((c : Thread nD τ).loc main_arg5)) e) (⟨k.val, by omega⟩ : Fin 81)) : ℝ) : EReal) := funext fun k => hf0 _
  rw [hp, hq, hu, hv, hβ, hwb, hw]
  refine factored_eq_flat (fun k => f0 (ix2 (Cert.ReferenceIdeal.EdgeRead.srow (m ((c : Thread nD τ).loc main_arg4)) e) (⟨k.val, by omega⟩ : Fin 81))) (fun k => f0 (ix2 (Cert.ReferenceIdeal.EdgeRead.drow (m ((c : Thread nD τ).loc main_arg5)) e) (⟨k.val, by omega⟩ : Fin 81)))
    (fun k => f0 (ix2 (Cert.ReferenceIdeal.EdgeRead.drow (m ((c : Thread nD τ).loc main_arg5)) e) k)) (fun k => f0 (ix2 (Cert.ReferenceIdeal.EdgeRead.srow (m ((c : Thread nD τ).loc main_arg4)) e) k)) (fun k => f3 (ix2 k j)) (fun k => f1 (ix2 e k)) _ ?_ ?_ ?_
  · intro k hk
    rw [Cert.ReferenceIdeal.EdgeRead.ev_lo _ _ _ _ e k hk]
    simp only [Cert.ReferenceIdeal.EdgeRead.dd, hf0]
    rw [hpS, hpT]
  · intro k hk3 hk
    rw [Cert.ReferenceIdeal.EdgeRead.ev_mid _ _ _ _ e k hk3 hk]
    simp only [Cert.ReferenceIdeal.EdgeRead.dd, hf0]
    rw [hpS, hpT]
  · intro k hk
    rw [Cert.ReferenceIdeal.EdgeRead.ev_hi _ _ _ _ e k hk, hf1]

/-- The widened edge contributions are the reference's edge stage, as whole arrays. -/
theorem contrib_array_eq (h0 : ∀ i, ∃ r : ℝ, (m ((c : Thread nD τ).loc main_arg0)) i = (r : EReal)) (h1 : ∀ i, ∃ r : ℝ, (m ((c : Thread nD τ).loc main_arg1)) i = (r : EReal))
    (h3 : ∀ i, ∃ r : ℝ, (m ((c : Thread nD τ).loc main_arg3)) i = (r : EReal)) :
    (extf (F := Ideal) .f32 ((dat1 (F := Ideal) (V3 m ρ) c).arrAt 6 cfg1.N) bitsLt_bf16_f32 : S800000x64.Idx → EReal)
      = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  funext i
  obtain ⟨e, j, rfl⟩ : ∃ (e : Fin 800000) (j : Fin 64), i = ix2 e j := ⟨i 0, i 1, eq_ix2 i⟩
  exact contrib_eq m ρ c h0 h1 h3 e j

/-- The aggregate region 2 adds is the reference's scatter stage: the same scatter-add of equal contributions by the
    same indices into the same zero array. -/
theorem agg_eq (h0 : ∀ i, ∃ r : ℝ, (m ((c : Thread nD τ).loc main_arg0)) i = (r : EReal)) (h1 : ∀ i, ∃ r : ℝ, (m ((c : Thread nD τ).loc main_arg1)) i = (r : EReal))
    (h3 : ∀ i, ∃ r : ℝ, (m ((c : Thread nD τ).loc main_arg3)) i = (r : EReal)) :
    W5 m ρ c (Proc.devRef .tc main_v37)
      = Cert.ReferenceIdeal.Read.val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W5_v37, contrib_array_eq m ρ c h0 h1 h3]
  rfl

/-- THE RESULT ARRAY is the reference's result term of the same arguments. -/
theorem final (h0 : ∀ i, ∃ r : ℝ, (m ((c : Thread nD τ).loc main_arg0)) i = (r : EReal)) (h1 : ∀ i, ∃ r : ℝ, (m ((c : Thread nD τ).loc main_arg1)) i = (r : EReal))
    (h3 : ∀ i, ∃ r : ℝ, (m ((c : Thread nD τ).loc main_arg3)) i = (r : EReal)) :
    W6 m ρ c (Proc.devRef .tc main_v38)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W6_out]
  funext i
  obtain ⟨n, j, rfl⟩ : ∃ (n : Fin 100000) (j : Fin 64), i = ix2 n j := ⟨i 0, i 1, eq_ix2 i⟩
  rw [node_out_closed (V5 m ρ) c n j, Cert.ReferenceIdeal.Read.val_main_v38_apply, Cert.ReferenceIdeal.Read.val_main_v37_apply]
  have hagg : V5 m ρ c main_v37 (ix2 n j)
      = Cert.ReferenceIdeal.Read.val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 n j) :=
    congrFun (agg_eq m ρ c h0 h1 h3) (ix2 n j)
  rw [hagg]
  refine congrArg (· + _) (Finset.sum_congr rfl fun k _ => ?_)
  have el : Cert.ReferenceIdeal.Read.lidx_main_v37 (ix2 n j) k = ix2 n k :=
    funext fun a => Fin.ext (by match a with | ⟨0, _⟩ => rfl | ⟨1, _⟩ => rfl)
  have er : Cert.ReferenceIdeal.Read.ridx_main_v37 (ix2 n j) k = ix2 k j :=
    funext fun a => Fin.ext (by match a with | ⟨0, _⟩ => rfl | ⟨1, _⟩ => rfl)
  rw [feat_in2, wself_in, el, er]

end Cert.Bridge

end
-- ==== Proof.lean ====
/-
  The certificate of a graph-convolution kernel against its reference.

  For 100000 nodes with 81 features and 800000 edges with 22 bond features the reference gathers both endpoints' rows
  per edge, forms the edge vector (the destination's three coordinates and the sums of the remaining 78 features, all
  divided by the squared distance of the endpoints' coordinates — 0.01 standing in for a vanishing distance —, then the
  bond features), multiplies it by the 103 × 64 weight matrix, scatter-adds the products by source index and adds the
  nodes' own projection. The kernel factors the product through two per-node projections computed once
  (all 81 features, and the 78 features past the coordinates), gathers those per edge, scales their sum by the reciprocal
  squared distance and adds the bond part. On the extended reals the two agree when every feature, bond and weight entry
  is a real number: the squared distance is then a nonzero real and the reciprocal distributes over the sums.

  The three frames are the generated frame certificates and the reference's generated run; the idealization rewrote
  nothing, so its claim is trivial; the value claim puts both runs at the reference's own result term.
-/
import proofs.«130521_j49357764165669_2_alg».proof.Defs
import proofs.«130521_j49357764165669_2_alg».proof.Proof.Gen.Kernel
import proofs.«130521_j49357764165669_2_alg».proof.Proof.Gen.Kernel.Skeleton
import proofs.«130521_j49357764165669_2_alg».proof.Proof.Gen.Kernel.Launch
import proofs.«130521_j49357764165669_2_alg».proof.Proof.Gen.Kernel.Points
import proofs.«130521_j49357764165669_2_alg».proof.Proof.Gen.Kernel.Frame
import proofs.«130521_j49357764165669_2_alg».proof.Proof.Gen.KernelIdeal
import proofs.«130521_j49357764165669_2_alg».proof.Proof.Gen.KernelIdeal.Skeleton
import proofs.«130521_j49357764165669_2_alg».proof.Proof.Gen.KernelIdeal.Launch
import proofs.«130521_j49357764165669_2_alg».proof.Proof.Gen.KernelIdeal.Points
import proofs.«130521_j49357764165669_2_alg».proof.Proof.Gen.KernelIdeal.Frame
import proofs.«130521_j49357764165669_2_alg».proof.Proof.Gen.ReferenceIdeal
import proofs.«130521_j49357764165669_2_alg».proof.Proof.Gen.ReferenceIdeal.Run
import proofs.«130521_j49357764165669_2_alg».proof.Proof.Gen.ReferenceIdeal.Read
import proofs.«130521_j49357764165669_2_alg».proof.Proof.Gen.Pre_finite_inputs
import proofs.«130521_j49357764165669_2_alg».proof.Proof.KernelRun
import proofs.«130521_j49357764165669_2_alg».proof.Proof.Finite
import proofs.«130521_j49357764165669_2_alg».proof.Proof.Bridge
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the reference's result term of those
    arguments in the result buffer: the kernel because its last region's array is that term when the float inputs are
    finite, the reference by its run. -/
theorem algebraic : Cert.algebraic_KernelIdeal_ReferenceIdeal := by
  intro m ρ m' ρ' hpre hagree
  have hfin := fun c => Cert.FiniteInputs.finite_of_pre _ _ _ _ _ _ (hpre c)
  refine ⟨fun c => Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.final m ρ c (hfin c).1 (hfin c).2.1 (hfin c).2.2.2), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
